-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x4096 : Shape := ⟨3, ![8, 2048, 4096]⟩
abbrev S8x4096 : Shape := ⟨2, ![8, 4096]⟩
abbrev S8x4096x2048 : Shape := ⟨3, ![8, 4096, 2048]⟩
abbrev S8x2048 : Shape := ⟨2, ![8, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8x4096x2048 : S_.BroadcastsInDim S8x4096x2048 (![] : Fin 0 → Fin S8x4096x2048.rank)
  reducesTo_S8x4096x2048_S_d0_1_2 : S8x4096x2048.ReducesTo [0, 1, 2] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg4 : FVec F S8x2048 .f32) (main_v13 : IVec S_ 1) (main_v16 : IVec S8x4096x2048 1) : IVec S_ 1 :=
  let main_c_5 : IVec S_ 1 := constantI S_ 1 1#1
  let main_v17 : IVec S_ 1 := (fun x v => Host.reduce IntOp.andi x v reducesTo_S8x4096x2048_S_d0_1_2 h_S_) main_v16 main_c_5
  let main_v18 : IVec S_ 1 := andi main_v13 main_v17
  let main_v19 : FVec F S8x2048 .f32 := Host.absf main_arg4
  let main_cst_6 : FVec F S_ .f32 := constant S_ .f32 0x7F800000#32
  let main_v20 : FVec F S8x2048 .f32 := broadcastInDim S8x2048 ![] bcast_S_S8x2048 main_cst_6
  let main_v21 : IVec S8x2048 1 := cmpf .olt main_v19 main_v20
  let main_c_7 : IVec S_ 1 := constantI S_ 1 1#1
  let main_v22 : IVec S_ 1 := (fun x v => Host.reduce IntOp.andi x v reducesTo_S8x2048_S_d0_1 h_S_) main_v21 main_c_7
  let main_v23 : IVec S_ 1 := andi main_v18 main_v22
  main_v23

def fn {F : FTy → Type} [FloatOps F] (main_arg0 : FVec F S8192x2048 .f32) (main_arg1 : FVec F S8x2048x4096 .f32) (main_arg2 : FVec F S8x4096 .f32) (main_arg3 : FVec F S8x4096x2048 .f32) (main_arg4 : FVec F S8x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x4096 .f32 := Host.absf main_arg1
  let main_cst_0 : FVec F S_ .f32 := constant S_ .f32 0x7F800000#32
  let main_v5 : FVec F S8x2048x4096 .f32 := broadcastInDim S8x2048x4096 ![] bcast_S_S8x2048x4096 main_cst_0
  let main_v6 : IVec S8x2048x4096 1 := cmpf .olt main_v4 main_v5
  let main_c_1 : IVec S_ 1 := constantI S_ 1 1#1
  let main_v7 : IVec S_ 1 := (fun x v => Host.reduce IntOp.andi x v reducesTo_S8x2048x4096_S_d0_1_2 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S8x4096x2048 .f32 := Host.absf main_arg3
  let main_cst_4 : FVec F S_ .f32 := constant S_ .f32 0x7F800000#32
  let main_v15 : FVec F S8x4096x2048 .f32 := broadcastInDim S8x4096x2048 ![] bcast_S_S8x4096x2048 main_cst_4
  let main_v16 : IVec S8x4096x2048 1 := cmpf .olt main_v14 main_v15
  fn_part1 (F := F) main_arg4 main_v13 main_v16
-- ==== Kernel.lean ====
abbrev S8192x2048 : Shape := ⟨2, ![8192, 2048]⟩
abbrev S8x2048x4096 : Shape := ⟨3, ![8, 2048, 4096]⟩
abbrev S8x4096 : Shape := ⟨2, ![8, 4096]⟩
abbrev S8x4096x2048 : Shape := ⟨3, ![8, 4096, 2048]⟩
abbrev S8x2048 : Shape := ⟨2, ![8, 2048]⟩
abbrev S8x1x4096 : Shape := ⟨3, ![8, 1, 4096]⟩
abbrev S8x1x2048 : Shape := ⟨3, ![8, 1, 2048]⟩
abbrev S8x8192x2048 : Shape := ⟨3, ![8, 8192, 2048]⟩
abbrev S1024x2048 : Shape := ⟨2, ![1024, 2048]⟩
abbrev S1x2048x4096 : Shape := ⟨3, ![1, 2048, 4096]⟩
abbrev S1x1x4096 : Shape := ⟨3, ![1, 1, 4096]⟩
abbrev S1x4096x2048 : Shape := ⟨3, ![1, 4096, 2048]⟩
abbrev S1x1x2048 : Shape := ⟨3, ![1, 1, 2048]⟩
abbrev S1x1024x2048 : Shape := ⟨3, ![1, 1024, 2048]⟩
abbrev S1x2048x1024 : Shape := ⟨3, ![1, 2048, 1024]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩
abbrev S1x1024x512 : Shape := ⟨3, ![1, 1024, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 11
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8x2048x4096, .f32⟩
  | .hbm, ⟨2, _⟩ => ⟨S8x4096, .f32⟩
  | .hbm, ⟨3, _⟩ => ⟨S8x4096x2048, .f32⟩
  | .hbm, ⟨4, _⟩ => ⟨S8x2048, .f32⟩
  | .hbm, ⟨5, _⟩ => ⟨S8192x2048, .bf16⟩
  | .hbm, ⟨6, _⟩ => ⟨S8x2048x4096, .bf16⟩
  | .hbm, ⟨7, _⟩ => ⟨S8x4096x2048, .bf16⟩
  | .hbm, ⟨8, _⟩ => ⟨S8x1x4096, .f32⟩
  | .hbm, ⟨9, _⟩ => ⟨S8x1x2048, .f32⟩
  | .hbm, ⟨10, _⟩ => ⟨S8x8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x4096, .bf16⟩
  | .local _ .vmem, ⟨3, _⟩ => ⟨S1x1x4096, .f32⟩
  | .local _ .vmem, ⟨4, _⟩ => ⟨S1x1x4096, .f32⟩
  | .local _ .vmem, ⟨5, _⟩ => ⟨S1x4096x2048, .bf16⟩
  | .local _ .vmem, ⟨6, _⟩ => ⟨S1x1x2048, .f32⟩
  | .local _ .vmem, ⟨7, _⟩ => ⟨S1x1x2048, .f32⟩
  | .local _ .vmem, ⟨8, _⟩ => ⟨S1x1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

class Facts₀ : Prop where
  bitsLt_bf16_f32 : FTy.bits .bf16 < FTy.bits .f32
  shapeCasts_S8x4096_S8x1x4096 : S8x4096.ShapeCasts S8x1x4096
  shapeCasts_S8x2048_S8x1x2048 : S8x2048.ShapeCasts S8x1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048x4096_S1x2048x1024_0_0_0 : ∀ a, (![0, 0, 0] : Fin 3 → Nat) a + S1x2048x1024.size a ≤ S1x2048x4096.size a
  h_S1x2048x1024 : 0 < S1x2048x1024.numel
  shapeCasts_S1x2048x1024_S2048x1024 : S1x2048x1024.ShapeCasts S2048x1024
  inb_S1x1x4096_S1x1x1024_0_0_0 : ∀ a, (![0, 0, 0] : Fin 3 → Nat) a + S1x1x1024.size a ≤ S1x1x4096.size a
  h_S1x1x1024 : 0 < S1x1x1024.numel
  shapeCasts_S1x1x1024_S1x1024 : S1x1x1024.ShapeCasts S1x1024
  broadcasts_S1x1024_S1024x1024 : S1x1024.Broadcasts S1024x1024
  inb_S1x4096x2048_S1x1024x512_0_0_0 : ∀ a, (![0, 0, 0] : Fin 3 → Nat) a + S1x1024x512.size a ≤ S1x4096x2048.size a
  h_S1x1024x512 : 0 < S1x1024x512.numel
  shapeCasts_S1x1024x512_S1024x512 : S1x1024x512.ShapeCasts S1024x512
  inb_S1x1x2048_S1x1x512_0_0_0 : ∀ a, (![0, 0, 0] : Fin 3 → Nat) a + S1x1x512.size a ≤ S1x1x2048.size a
  h_S1x1x512 : 0 < S1x1x512.numel
  shapeCasts_S1x1x512_S1x512 : S1x1x512.ShapeCasts S1x512
  broadcasts_S1x512_S1024x512 : S1x512.Broadcasts S1024x512
  inb_S1x1024x2048_S1x1024x512_0_0_0 : ∀ a, (![0, 0, 0] : Fin 3 → Nat) a + S1x1024x512.size a ≤ S1x1024x2048.size a
  shapeCasts_S1024x512_S1x1024x512 : S1024x512.ShapeCasts S1x1024x512
  inb_S1x4096x2048_S1x1024x512_0_0_512 : ∀ a, (![0, 0, 512] : Fin 3 → Nat) a + S1x1024x512.size a ≤ S1x4096x2048.size a
  inb_S1x1x2048_S1x1x512_0_0_512 : ∀ a, (![0, 0, 512] : Fin 3 → Nat) a + S1x1x512.size a ≤ S1x1x2048.size a
  inb_S1x1024x2048_S1x1024x512_0_0_512 : ∀ a, (![0, 0, 512] : Fin 3 → Nat) a + S1x1024x512.size a ≤ S1x1024x2048.size a
  inb_S1x4096x2048_S1x1024x512_0_0_1024 : ∀ a, (![0, 0, 1024] : Fin 3 → Nat) a + S1x1024x512.size a ≤ S1x4096x2048.size a
  inb_S1x1x2048_S1x1x512_0_0_1024 : ∀ a, (![0, 0, 1024] : Fin 3 → Nat) a + S1x1x512.size a ≤ S1x1x2048.size a
  inb_S1x1024x2048_S1x1024x512_0_0_1024 : ∀ a, (![0, 0, 1024] : Fin 3 → Nat) a + S1x1024x512.size a ≤ S1x1024x2048.size a
  inb_S1x4096x2048_S1x1024x512_0_0_1536 : ∀ a, (![0, 0, 1536] : Fin 3 → Nat) a + S1x1024x512.size a ≤ S1x4096x2048.size a
  inb_S1x1x2048_S1x1x512_0_0_1536 : ∀ a, (![0, 0, 1536] : Fin 3 → Nat) a + S1x1x512.size a ≤ S1x1x2048.size a
  inb_S1x1024x2048_S1x1024x512_0_0_1536 : ∀ a, (![0, 0, 1536] : Fin 3 → Nat) a + S1x1024x512.size a ≤ S1x1024x2048.size a
  inb_S1x2048x4096_S1x2048x1024_0_0_1024 : ∀ a, (![0, 0, 1024] : Fin 3 → Nat) a + S1x2048x1024.size a ≤ S1x2048x4096.size a
  inb_S1x1x4096_S1x1x1024_0_0_1024 : ∀ a, (![0, 0, 1024] : Fin 3 → Nat) a + S1x1x1024.size a ≤ S1x1x4096.size a
  inb_S1x4096x2048_S1x1024x512_0_1024_0 : ∀ a, (![0, 1024, 0] : Fin 3 → Nat) a + S1x1024x512.size a ≤ S1x4096x2048.size a
  inb_S1x4096x2048_S1x1024x512_0_1024_512 : ∀ a, (![0, 1024, 512] : Fin 3 → Nat) a + S1x1024x512.size a ≤ S1x4096x2048.size a
  inb_S1x4096x2048_S1x1024x512_0_1024_1024 : ∀ a, (![0, 1024, 1024] : Fin 3 → Nat) a + S1x1024x512.size a ≤ S1x4096x2048.size a
  inb_S1x4096x2048_S1x1024x512_0_1024_1536 : ∀ a, (![0, 1024, 1536] : Fin 3 → Nat) a + S1x1024x512.size a ≤ S1x4096x2048.size a
  inb_S1x2048x4096_S1x2048x1024_0_0_2048 : ∀ a, (![0, 0, 2048] : Fin 3 → Nat) a + S1x2048x1024.size a ≤ S1x2048x4096.size a
  inb_S1x1x4096_S1x1x1024_0_0_2048 : ∀ a, (![0, 0, 2048] : Fin 3 → Nat) a + S1x1x1024.size a ≤ S1x1x4096.size a
  inb_S1x4096x2048_S1x1024x512_0_2048_0 : ∀ a, (![0, 2048, 0] : Fin 3 → Nat) a + S1x1024x512.size a ≤ S1x4096x2048.size a
  inb_S1x4096x2048_S1x1024x512_0_2048_512 : ∀ a, (![0, 2048, 512] : Fin 3 → Nat) a + S1x1024x512.size a ≤ S1x4096x2048.size a
  inb_S1x4096x2048_S1x1024x512_0_2048_1024 : ∀ a, (![0, 2048, 1024] : Fin 3 → Nat) a + S1x1024x512.size a ≤ S1x4096x2048.size a
  inb_S1x4096x2048_S1x1024x512_0_2048_1536 : ∀ a, (![0, 2048, 1536] : Fin 3 → Nat) a + S1x1024x512.size a ≤ S1x4096x2048.size a
  inb_S1x2048x4096_S1x2048x1024_0_0_3072 : ∀ a, (![0, 0, 3072] : Fin 3 → Nat) a + S1x2048x1024.size a ≤ S1x2048x4096.size a
  inb_S1x1x4096_S1x1x1024_0_0_3072 : ∀ a, (![0, 0, 3072] : Fin 3 → Nat) a + S1x1x1024.size a ≤ S1x1x4096.size a
  inb_S1x4096x2048_S1x1024x512_0_3072_0 : ∀ a, (![0, 3072, 0] : Fin 3 → Nat) a + S1x1024x512.size a ≤ S1x4096x2048.size a
  inb_S1x4096x2048_S1x1024x512_0_3072_512 : ∀ a, (![0, 3072, 512] : Fin 3 → Nat) a + S1x1024x512.size a ≤ S1x4096x2048.size a
  inb_S1x4096x2048_S1x1024x512_0_3072_1024 : ∀ a, (![0, 3072, 1024] : Fin 3 → Nat) a + S1x1024x512.size a ≤ S1x4096x2048.size a
  inb_S1x4096x2048_S1x1024x512_0_3072_1536 : ∀ a, (![0, 3072, 1536] : Fin 3 → Nat) a + S1x1024x512.size a ≤ S1x4096x2048.size a
  dot_S1024x2048_S2048x1024_S1024x1024_1_0_0_1_n_n_wf : DotDims.WF S1024x2048 S2048x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x4096.size a ≤ S8x2048x4096.size a
  hwx0_1 : ∀ i : grid0.Coords, EltTy.bits .bf16 = 32 ∨ (Rect.block (s := S8x2048x4096) S1x2048x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S8x1x4096.size a
  hwx0_2 : ∀ i : grid0.Coords, EltTy.bits .f32 = 32 ∨ (Rect.block (s := S8x1x4096) S1x1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096x2048.size a ≤ S8x4096x2048.size a
  hwx0_3 : ∀ i : grid0.Coords, EltTy.bits .bf16 = 32 ∨ (Rect.block (s := S8x4096x2048) S1x4096x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S8x1x2048.size a
  hwx0_4 : ∀ i : grid0.Coords, EltTy.bits .f32 = 32 ∨ (Rect.block (s := S8x1x2048) S1x1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024x2048.size a ≤ S8x8192x2048.size a
  hwx0_5 : ∀ i : grid0.Coords, EltTy.bits .f32 = 32 ∨ (Rect.block (s := S8x8192x2048) S1x1024x2048.size (cc0_transform_5 i) (hinb0_5 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_call0_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1x1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1x4096x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1024x2048.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8x2048x4096 : Shape := ⟨3, ![8, 2048, 4096]⟩
abbrev S8x4096 : Shape := ⟨2, ![8, 4096]⟩
abbrev S8x4096x2048 : Shape := ⟨3, ![8, 4096, 2048]⟩
abbrev S8x2048 : Shape := ⟨2, ![8, 2048]⟩
abbrev S1x2048x4096 : Shape := ⟨3, ![1, 2048, 4096]⟩
abbrev S2048x4096 : Shape := ⟨2, ![2048, 4096]⟩
abbrev S8192x4096 : Shape := ⟨2, ![8192, 4096]⟩
abbrev S1x4096 : Shape := ⟨2, ![1, 4096]⟩
abbrev S4096 : Shape := ⟨1, ![4096]⟩
abbrev S_ : Shape := ⟨0, ![]⟩
abbrev S1x4096x2048 : Shape := ⟨3, ![1, 4096, 2048]⟩
abbrev S4096x2048 : Shape := ⟨2, ![4096, 2048]⟩
abbrev S1x2048 : Shape := ⟨2, ![1, 2048]⟩
abbrev S2048 : Shape := ⟨1, ![2048]⟩
abbrev S1x8192x2048 : Shape := ⟨3, ![1, 8192, 2048]⟩
abbrev S8x8192x2048 : Shape := ⟨3, ![8, 8192, 2048]⟩

abbrev nBuf : Space → Nat
  | .hbm => 166
  | .vmem => 0
  | .smem => 0
  | _ => 0

abbrev hbmTy0_0 (i : Nat) : BufTy := match i % 128 with
  | 0 => ⟨S8192x2048, .f32⟩
  | 1 => ⟨S8x2048x4096, .f32⟩
  | 2 => ⟨S8x4096, .f32⟩
  | 3 => ⟨S8x4096x2048, .f32⟩
  | 4 => ⟨S8x2048, .f32⟩
  | 5 => ⟨S1x2048x4096, .f32⟩
  | 6 => ⟨S2048x4096, .f32⟩
  | 7 => ⟨S8192x4096, .f32⟩
  | 8 => ⟨S1x4096, .f32⟩
  | 9 => ⟨S4096, .f32⟩
  | 10 => ⟨S1x4096, .f32⟩
  | 11 => ⟨S8192x4096, .f32⟩
  | 12 => ⟨S8192x4096, .f32⟩
  | 13 => ⟨S_, .f32⟩
  | 14 => ⟨S8192x4096, .f32⟩
  | 15 => ⟨S8192x4096, .f32⟩
  | 16 => ⟨S1x4096x2048, .f32⟩
  | 17 => ⟨S4096x2048, .f32⟩
  | 18 => ⟨S8192x2048, .f32⟩
  | 19 => ⟨S1x2048, .f32⟩
  | 20 => ⟨S2048, .f32⟩
  | 21 => ⟨S1x2048, .f32⟩
  | 22 => ⟨S8192x2048, .f32⟩
  | 23 => ⟨S8192x2048, .f32⟩
  | 24 => ⟨S1x2048x4096, .f32⟩
  | 25 => ⟨S2048x4096, .f32⟩
  | 26 => ⟨S8192x4096, .f32⟩
  | 27 => ⟨S1x4096, .f32⟩
  | 28 => ⟨S4096, .f32⟩
  | 29 => ⟨S1x4096, .f32⟩
  | 30 => ⟨S8192x4096, .f32⟩
  | 31 => ⟨S8192x4096, .f32⟩
  | 32 => ⟨S_, .f32⟩
  | 33 => ⟨S8192x4096, .f32⟩
  | 34 => ⟨S8192x4096, .f32⟩
  | 35 => ⟨S1x4096x2048, .f32⟩
  | 36 => ⟨S4096x2048, .f32⟩
  | 37 => ⟨S8192x2048, .f32⟩
  | 38 => ⟨S1x2048, .f32⟩
  | 39 => ⟨S2048, .f32⟩
  | 40 => ⟨S1x2048, .f32⟩
  | 41 => ⟨S8192x2048, .f32⟩
  | 42 => ⟨S8192x2048, .f32⟩
  | 43 => ⟨S1x2048x4096, .f32⟩
  | 44 => ⟨S2048x4096, .f32⟩
  | 45 => ⟨S8192x4096, .f32⟩
  | 46 => ⟨S1x4096, .f32⟩
  | 47 => ⟨S4096, .f32⟩
  | 48 => ⟨S1x4096, .f32⟩
  | 49 => ⟨S8192x4096, .f32⟩
  | 50 => ⟨S8192x4096, .f32⟩
  | 51 => ⟨S_, .f32⟩
  | 52 => ⟨S8192x4096, .f32⟩
  | 53 => ⟨S8192x4096, .f32⟩
  | 54 => ⟨S1x4096x2048, .f32⟩
  | 55 => ⟨S4096x2048, .f32⟩
  | 56 => ⟨S8192x2048, .f32⟩
  | 57 => ⟨S1x2048, .f32⟩
  | 58 => ⟨S2048, .f32⟩
  | 59 => ⟨S1x2048, .f32⟩
  | 60 => ⟨S8192x2048, .f32⟩
  | 61 => ⟨S8192x2048, .f32⟩
  | 62 => ⟨S1x2048x4096, .f32⟩
  | 63 => ⟨S2048x4096, .f32⟩
  | 64 => ⟨S8192x4096, .f32⟩
  | 65 => ⟨S1x4096, .f32⟩
  | 66 => ⟨S4096, .f32⟩
  | 67 => ⟨S1x4096, .f32⟩
  | 68 => ⟨S8192x4096, .f32⟩
  | 69 => ⟨S8192x4096, .f32⟩
  | 70 => ⟨S_, .f32⟩
  | 71 => ⟨S8192x4096, .f32⟩
  | 72 => ⟨S8192x4096, .f32⟩
  | 73 => ⟨S1x4096x2048, .f32⟩
  | 74 => ⟨S4096x2048, .f32⟩
  | 75 => ⟨S8192x2048, .f32⟩
  | 76 => ⟨S1x2048, .f32⟩
  | 77 => ⟨S2048, .f32⟩
  | 78 => ⟨S1x2048, .f32⟩
  | 79 => ⟨S8192x2048, .f32⟩
  | 80 => ⟨S8192x2048, .f32⟩
  | 81 => ⟨S1x2048x4096, .f32⟩
  | 82 => ⟨S2048x4096, .f32⟩
  | 83 => ⟨S8192x4096, .f32⟩
  | 84 => ⟨S1x4096, .f32⟩
  | 85 => ⟨S4096, .f32⟩
  | 86 => ⟨S1x4096, .f32⟩
  | 87 => ⟨S8192x4096, .f32⟩
  | 88 => ⟨S8192x4096, .f32⟩
  | 89 => ⟨S_, .f32⟩
  | 90 => ⟨S8192x4096, .f32⟩
  | 91 => ⟨S8192x4096, .f32⟩
  | 92 => ⟨S1x4096x2048, .f32⟩
  | 93 => ⟨S4096x2048, .f32⟩
  | 94 => ⟨S8192x2048, .f32⟩
  | 95 => ⟨S1x2048, .f32⟩
  | 96 => ⟨S2048, .f32⟩
  | 97 => ⟨S1x2048, .f32⟩
  | 98 => ⟨S8192x2048, .f32⟩
  | 99 => ⟨S8192x2048, .f32⟩
  | 100 => ⟨S1x2048x4096, .f32⟩
  | 101 => ⟨S2048x4096, .f32⟩
  | 102 => ⟨S8192x4096, .f32⟩
  | 103 => ⟨S1x4096, .f32⟩
  | 104 => ⟨S4096, .f32⟩
  | 105 => ⟨S1x4096, .f32⟩
  | 106 => ⟨S8192x4096, .f32⟩
  | 107 => ⟨S8192x4096, .f32⟩
  | 108 => ⟨S_, .f32⟩
  | 109 => ⟨S8192x4096, .f32⟩
  | 110 => ⟨S8192x4096, .f32⟩
  | 111 => ⟨S1x4096x2048, .f32⟩
  | 112 => ⟨S4096x2048, .f32⟩
  | 113 => ⟨S8192x2048, .f32⟩
  | 114 => ⟨S1x2048, .f32⟩
  | 115 => ⟨S2048, .f32⟩
  | 116 => ⟨S1x2048, .f32⟩
  | 117 => ⟨S8192x2048, .f32⟩
  | 118 => ⟨S8192x2048, .f32⟩
  | 119 => ⟨S1x2048x4096, .f32⟩
  | 120 => ⟨S2048x4096, .f32⟩
  | 121 => ⟨S8192x4096, .f32⟩
  | 122 => ⟨S1x4096, .f32⟩
  | 123 => ⟨S4096, .f32⟩
  | 124 => ⟨S1x4096, .f32⟩
  | 125 => ⟨S8192x4096, .f32⟩
  | 126 => ⟨S8192x4096, .f32⟩
  | 127 => ⟨S_, .f32⟩
  | _ => ⟨S8192x2048, .f32⟩

abbrev hbmTy0_1 (i : Nat) : BufTy := match i % 128 with
  | 0 => ⟨S8192x4096, .f32⟩
  | 1 => ⟨S8192x4096, .f32⟩
  | 2 => ⟨S1x4096x2048, .f32⟩
  | 3 => ⟨S4096x2048, .f32⟩
  | 4 => ⟨S8192x2048, .f32⟩
  | 5 => ⟨S1x2048, .f32⟩
  | 6 => ⟨S2048, .f32⟩
  | 7 => ⟨S1x2048, .f32⟩
  | 8 => ⟨S8192x2048, .f32⟩
  | 9 => ⟨S8192x2048, .f32⟩
  | 10 => ⟨S1x2048x4096, .f32⟩
  | 11 => ⟨S2048x4096, .f32⟩
  | 12 => ⟨S8192x4096, .f32⟩
  | 13 => ⟨S1x4096, .f32⟩
  | 14 => ⟨S4096, .f32⟩
  | 15 => ⟨S1x4096, .f32⟩
  | 16 => ⟨S8192x4096, .f32⟩
  | 17 => ⟨S8192x4096, .f32⟩
  | 18 => ⟨S_, .f32⟩
  | 19 => ⟨S8192x4096, .f32⟩
  | 20 => ⟨S8192x4096, .f32⟩
  | 21 => ⟨S1x4096x2048, .f32⟩
  | 22 => ⟨S4096x2048, .f32⟩
  | 23 => ⟨S8192x2048, .f32⟩
  | 24 => ⟨S1x2048, .f32⟩
  | 25 => ⟨S2048, .f32⟩
  | 26 => ⟨S1x2048, .f32⟩
  | 27 => ⟨S8192x2048, .f32⟩
  | 28 => ⟨S8192x2048, .f32⟩
  | 29 => ⟨S1x8192x2048, .f32⟩
  | 30 => ⟨S1x8192x2048, .f32⟩
  | 31 => ⟨S1x8192x2048, .f32⟩
  | 32 => ⟨S1x8192x2048, .f32⟩
  | 33 => ⟨S1x8192x2048, .f32⟩
  | 34 => ⟨S1x8192x2048, .f32⟩
  | 35 => ⟨S1x8192x2048, .f32⟩
  | 36 => ⟨S1x8192x2048, .f32⟩
  | 37 => ⟨S8x8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_1 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_cst_2 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_cst_3 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_cst_4 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_cst_5 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_cst_6 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩

abbrev nD : Nat := 1
abbrev τ : Topo := Topo.v7x

variable {F : FTy → Type} [FloatOps F]

class Facts₀ : Prop where
  slices_S8x2048x4096_S1x2048x4096_0_0_0 : S8x2048x4096.Slices ![0, 0, 0] S1x2048x4096
  shapeCasts_S1x2048x4096_S2048x4096 : S1x2048x4096.ShapeCasts S2048x4096
  slices_S8x4096_S1x4096_0_0 : S8x4096.Slices ![0, 0] S1x4096
  shapeCasts_S1x4096_S4096 : S1x4096.ShapeCasts S4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  slices_S8x4096x2048_S1x4096x2048_0_0_0 : S8x4096x2048.Slices ![0, 0, 0] S1x4096x2048
  shapeCasts_S1x4096x2048_S4096x2048 : S1x4096x2048.ShapeCasts S4096x2048
  slices_S8x2048_S1x2048_0_0 : S8x2048.Slices ![0, 0] S1x2048
  shapeCasts_S1x2048_S2048 : S1x2048.ShapeCasts S2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  slices_S8x2048x4096_S1x2048x4096_1_0_0 : S8x2048x4096.Slices ![1, 0, 0] S1x2048x4096
  slices_S8x4096_S1x4096_1_0 : S8x4096.Slices ![1, 0] S1x4096
  slices_S8x4096x2048_S1x4096x2048_1_0_0 : S8x4096x2048.Slices ![1, 0, 0] S1x4096x2048
  slices_S8x2048_S1x2048_1_0 : S8x2048.Slices ![1, 0] S1x2048
  slices_S8x2048x4096_S1x2048x4096_2_0_0 : S8x2048x4096.Slices ![2, 0, 0] S1x2048x4096
  slices_S8x4096_S1x4096_2_0 : S8x4096.Slices ![2, 0] S1x4096
  slices_S8x4096x2048_S1x4096x2048_2_0_0 : S8x4096x2048.Slices ![2, 0, 0] S1x4096x2048
  slices_S8x2048_S1x2048_2_0 : S8x2048.Slices ![2, 0] S1x2048
  slices_S8x2048x4096_S1x2048x4096_3_0_0 : S8x2048x4096.Slices ![3, 0, 0] S1x2048x4096
  slices_S8x4096_S1x4096_3_0 : S8x4096.Slices ![3, 0] S1x4096
  slices_S8x4096x2048_S1x4096x2048_3_0_0 : S8x4096x2048.Slices ![3, 0, 0] S1x4096x2048
  slices_S8x2048_S1x2048_3_0 : S8x2048.Slices ![3, 0] S1x2048
  slices_S8x2048x4096_S1x2048x4096_4_0_0 : S8x2048x4096.Slices ![4, 0, 0] S1x2048x4096
  slices_S8x4096_S1x4096_4_0 : S8x4096.Slices ![4, 0] S1x4096
  slices_S8x4096x2048_S1x4096x2048_4_0_0 : S8x4096x2048.Slices ![4, 0, 0] S1x4096x2048
  slices_S8x2048_S1x2048_4_0 : S8x2048.Slices ![4, 0] S1x2048
  slices_S8x2048x4096_S1x2048x4096_5_0_0 : S8x2048x4096.Slices ![5, 0, 0] S1x2048x4096
  slices_S8x4096_S1x4096_5_0 : S8x4096.Slices ![5, 0] S1x4096
  slices_S8x4096x2048_S1x4096x2048_5_0_0 : S8x4096x2048.Slices ![5, 0, 0] S1x4096x2048
  slices_S8x2048_S1x2048_5_0 : S8x2048.Slices ![5, 0] S1x2048
  slices_S8x2048x4096_S1x2048x4096_6_0_0 : S8x2048x4096.Slices ![6, 0, 0] S1x2048x4096
  slices_S8x4096_S1x4096_6_0 : S8x4096.Slices ![6, 0] S1x4096
  slices_S8x4096x2048_S1x4096x2048_6_0_0 : S8x4096x2048.Slices ![6, 0, 0] S1x4096x2048
  slices_S8x2048_S1x2048_6_0 : S8x2048.Slices ![6, 0] S1x2048
  slices_S8x2048x4096_S1x2048x4096_7_0_0 : S8x2048x4096.Slices ![7, 0, 0] S1x2048x4096
  slices_S8x4096_S1x4096_7_0 : S8x4096.Slices ![7, 0] S1x4096
  slices_S8x4096x2048_S1x4096x2048_7_0_0 : S8x4096x2048.Slices ![7, 0, 0] S1x4096x2048
  slices_S8x2048_S1x2048_7_0 : S8x2048.Slices ![7, 0] S1x2048
  bcast_S8192x2048_S1x8192x2048_1_2 : S8192x2048.BroadcastsInDim S1x8192x2048 (![1, 2] : Fin 2 → Fin S1x8192x2048.rank)
  concatenates_S1x8192x2048_S1x8192x2048_S1x8192x2048_S1x8192x2048_S1x8192x2048_S1x8192x2048_S1x8192x2048_S1x8192x2048_S8x8192x2048_d0 : Shape.Concatenates [S1x8192x2048, S1x8192x2048, S1x8192x2048, S1x8192x2048, S1x8192x2048, S1x8192x2048, S1x8192x2048, S1x8192x2048] S8x8192x2048 0
  dot_S8192x2048_S2048x4096_S8192x4096_1_0_0_1_n_n_wf : DotDims.WF S8192x2048 S2048x4096 S8192x4096 [1] [0] [0] [1] [] []
  dot_S8192x4096_S4096x2048_S8192x2048_1_0_0_1_n_n_wf : DotDims.WF S8192x4096 S4096x2048 S8192x2048 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf

class Facts : Prop extends Facts₀ where

variable [Facts]
-- ==== Proof.LibDense.lean ====
/-
  A dense layer read entry by entry, at the exact (extended-real) values.

  A dense layer takes an M × K array x, a K × N weight W and a bias of length N and returns the M × N array whose
  (p, q) entry is  Σ_c x(p, c) · W(c, q) + bias(q).  A kernel computes it on a block of rows with its matrix unit
  (a product accumulated into zeros) and adds the bias laid out as a 1 × N row repeated down the block; a host
  program computes it with a general product of the whole arrays and adds the bias laid out first as a 1 × N row
  and then as an M × N array.  Here both are read at an entry as that one expression, the sum running over the
  contracted coordinate itself.  Also here: a leading axis of extent one dropped or added reads at an entry as the
  same array at the entry with that coordinate left out or set to zero.
-/
import Idealize.ShloMosaic.Lib.ValueIdx
import Idealize.ShloMosaic.Lib.Pipeline.Value
import Idealize.ShloMosaic.Lib.StackMember
import Idealize.ShloMosaic.PureOps.Ideal.Laws

noncomputable section

namespace Cert.Lib.Dense

open Idealize.ShloMosaic Idealize.ShloMosaic.ValueIdx
open scoped BigOperators

variable {M K N : Nat}

/-- Entry (p, q) of x · W with the bias β added to every row:  Σ_c x(p, c) · W(c, q) + β(q). -/
def denseAt (x : (⟨2, ![M, K]⟩ : Shape).Idx → EReal) (W : (⟨2, ![K, N]⟩ : Shape).Idx → EReal) (β : Fin N → EReal)
    (p : Fin M) (q : Fin N) : EReal :=
  (∑ c : Fin K, x (ix2 p c) * W (ix2 c q)) + β q

/-- The M × N array of those entries. -/
def dense (x : (⟨2, ![M, K]⟩ : Shape).Idx → EReal) (W : (⟨2, ![K, N]⟩ : Shape).Idx → EReal) (β : Fin N → EReal) :
    (⟨2, ![M, N]⟩ : Shape).Idx → EReal :=
  fun i => denseAt x W β (i 0) (i 1)

theorem dense_ix2 (x : (⟨2, ![M, K]⟩ : Shape).Idx → EReal) (W : (⟨2, ![K, N]⟩ : Shape).Idx → EReal) (β : Fin N → EReal)
    (p : Fin M) (q : Fin N) : dense x W β (ix2 p q) = denseAt x W β p q := rfl

/-- The product of an M × K by a K × N matrix accumulated into zeros, at (a, b), is the sum over the contracted
    coordinate of the products of the entries. -/
theorem matmul_plain_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A 1 × N row repeated down M rows (a vector broadcast), at (p, q), is the row at q. -/
theorem broadcastTo_row_apply {α : Type} (r : (⟨2, ![1, N]⟩ : Shape).Idx → α)
    (h : (⟨2, ![1, N]⟩ : Shape).Broadcasts ⟨2, ![M, N]⟩) (p : Fin M) (q : Fin N) :
    broadcastTo ⟨2, ![M, N]⟩ r h (ix2 p q) = r (ix2 (0 : Fin 1) q) := by
  refine broadcastTo_apply r h (ix2 p q) (ix2 (0 : Fin 1) q) fun a => ?_
  match a with
  | ⟨0, _⟩ => rfl
  | ⟨1, _⟩ =>
    show q.val = if N = 1 then 0 else q.val
    split
    · have := q.isLt; omega
    · rfl

/-- A 1 × N row laid out as an M × N array (a broadcast along both axes in place), at (p, q), is the row at q. -/
theorem broadcastInDim_row_apply {α : Type} (r : (⟨2, ![1, N]⟩ : Shape).Idx → α)
    (h : (⟨2, ![1, N]⟩ : Shape).BroadcastsInDim ⟨2, ![M, N]⟩ (![0, 1] : Fin 2 → Fin 2)) (p : Fin M) (q : Fin N) :
    broadcastInDim ⟨2, ![M, N]⟩ (![0, 1] : Fin 2 → Fin 2) h r (ix2 p q) = r (ix2 (0 : Fin 1) q) := by
  refine broadcastInDim_apply _ h r (ix2 p q) (ix2 (0 : Fin 1) q) fun a => ?_
  match a with
  | ⟨0, _⟩ => rfl
  | ⟨1, _⟩ =>
    show q.val = if N = 1 then 0 else q.val
    split
    · have := q.isLt; omega
    · rfl

/-- A vector of length N laid out as a 1 × N row, at (0, q), is the vector at q. -/
theorem broadcastInDim_vec_row_apply {α : Type} (v : (⟨1, ![N]⟩ : Shape).Idx → α)
    (h : (⟨1, ![N]⟩ : Shape).BroadcastsInDim ⟨2, ![1, N]⟩ (![1] : Fin 1 → Fin 2)) (q : Fin N) :
    broadcastInDim ⟨2, ![1, N]⟩ (![1] : Fin 1 → Fin 2) h v (ix2 (0 : Fin 1) q) = v (ix1 q) := by
  refine broadcastInDim_apply _ h v (ix2 (0 : Fin 1) q) (ix1 q) fun a => ?_
  match a with
  | ⟨0, _⟩ =>
    show q.val = if N = 1 then 0 else q.val
    split
    · have := q.isLt; omega
    · rfl

/-- A vector of length N reshaped to a 1 × N row, at (0, q), is the vector at q. -/
theorem shapeCast_vec_row_apply {α : Type} (v : (⟨1, ![N]⟩ : Shape).Idx → α)
    (h : (⟨1, ![N]⟩ : Shape).ShapeCasts ⟨2, ![1, N]⟩) (q : Fin N) :
    shapeCast ⟨2, ![1, N]⟩ v h (ix2 (0 : Fin 1) q) = v (ix1 q) := by
  refine shapeCast_apply v h _ _ ?_
  rw [Shape.rowMajor_val_two, Shape.rowMajor_val_one]
  show q.val = 0 * N + q.val
  omega

/-- The host's layer: the general product of the whole arrays, plus the bias laid out as a row and then as an
    array, is the array of dense entries. -/
theorem host_dense_eq {φ₁ φ₂ : FTy} (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (Host.dotGeneral (DotDims.plain M K N) prec x W)
        (broadcastInDim ⟨2, ![M, N]⟩ (![0, 1] : Fin 2 → Fin 2) h2 (broadcastInDim ⟨2, ![1, N]⟩ (![1] : Fin 1 → Fin 2) h1 b))
      = dense x W (fun q => b (ix1 q)) := by
  funext i
  obtain ⟨p, q, rfl⟩ : ∃ (p : Fin M) (q : Fin N), i = ix2 p q := ⟨i 0, i 1, eq_ix2 i⟩
  rw [addf_apply, StackMember.dotGeneral_plain_apply, broadcastInDim_row_apply, broadcastInDim_vec_row_apply]
  rfl

/-- The kernel's layer on a block of rows: the product into zeros plus the bias row repeated down the block, at (p, q),
    is the dense entry. -/
theorem block_dense_apply {φ₁ φ₂ : FTy} (prec : Option ContractPrecision)
    (x : FVec Ideal ⟨2, ![M, K]⟩ φ₁) (W : FVec Ideal ⟨2, ![K, N]⟩ φ₂) (r : FVec Ideal ⟨2, ![1, N]⟩ .f32)
    (h : (⟨2, ![1, N]⟩ : Shape).Broadcasts ⟨2, ![M, N]⟩) (p : Fin M) (q : Fin N) :
    addf (FloatOps.matmul (DotDims.plain M K N) prec x W (constant (F := Ideal) ⟨2, ![M, N]⟩ .f32 0x00000000#32))
        (broadcastTo ⟨2, ![M, N]⟩ r h) (ix2 p q)
      = denseAt x W (fun q => r (ix2 (0 : Fin 1) q)) p q := by
  rw [addf_apply, matmul_plain_zero_apply, broadcastTo_row_apply]
  rfl

end Cert.Lib.Dense

end
-- ==== Proof.Block.lean ====
/-
  What the kernel body computes on one block, read entry by entry on the extended reals.

  On a block of 1024 tokens the body handles the hidden axis in four chunks of 1024 units.  For a chunk it forms the
  hidden activations  relu(x · W1c + b1c)  (an [1024, 1024] array, rounded to bf16, which is the identity here), and for each of
  the four 512-wide column rectangles of the output block it multiplies them by the matching [1024, 512] piece of W2.
  The first chunk's product is stored with the bias added; each later chunk's product is added to what the rectangle
  already holds.  Three entry-wise readings carry all of it:

    hidden chunk      (p, j) ↦ max(Σ_κ x(p, κ) · W1c(κ, j) + b1c(j), 0)
    first store       (p, q) ↦ Σ_j h(p, j) · W2c(j, q) + b2c(q)
    accumulating one  (p, q) ↦ prev(p, q) + Σ_j h(p, j) · W2c(j, q)
-/
import proofs.«111104_g89558658056817_cont_sun_c4_558_18_alg».proof.KernelIdeal
import proofs.«111104_g89558658056817_cont_sun_c4_558_18_alg».proof.Proof.Gen.KernelIdeal
import proofs.«111104_g89558658056817_cont_sun_c4_558_18_alg».proof.Proof.Gen.KernelIdeal.Skeleton
import proofs.«111104_g89558658056817_cont_sun_c4_558_18_alg».proof.Proof.LibDense
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.Lib.Dense

/-! ## A unit leading axis dropped or added -/

/-- A [1, A, B] array reshaped to [A, B], at (a, b), is the array at (0, a, b). -/
theorem dropLead_apply {α : Type} {A B : Nat} (v : (⟨3, ![1, A, B]⟩ : Shape).Idx → α)
    (h : (⟨3, ![1, A, B]⟩ : Shape).ShapeCasts ⟨2, ![A, B]⟩) (a : Fin A) (b : Fin B) :
    shapeCast ⟨2, ![A, B]⟩ v h (ix2 a b) = v (ix3 (0 : Fin 1) a b) := by
  refine shapeCast_apply v h _ _ ?_
  rw [Shape.rowMajor_val_three, Shape.rowMajor_val_two]
  show (0 * A + a.val) * B + b.val = a.val * B + b.val
  rw [Nat.zero_mul, Nat.zero_add]

/-- An [A, B] array reshaped to [1, A, B], at (0, a, b), is the array at (a, b). -/
theorem addLead_apply {α : Type} {A B : Nat} (v : (⟨2, ![A, B]⟩ : Shape).Idx → α)
    (h : (⟨2, ![A, B]⟩ : Shape).ShapeCasts ⟨3, ![1, A, B]⟩) (a : Fin A) (b : Fin B) :
    shapeCast ⟨3, ![1, A, B]⟩ v h (ix3 (0 : Fin 1) a b) = v (ix2 a b) := by
  refine shapeCast_apply v h _ _ ?_
  rw [Shape.rowMajor_val_three, Shape.rowMajor_val_two]
  show a.val * B + b.val = (0 * A + a.val) * B + b.val
  rw [Nat.zero_mul, Nat.zero_add]

/-! ## The three readings -/

/-- The hidden activations of one chunk, at token `p` of the block and unit `j` of the chunk. -/
theorem hid_apply (v0 : FVec Ideal S1024x2048 .bf16) (v2 : FVec Ideal S1x2048x1024 .bf16) (v5 : FVec Ideal S1x1x1024 .f32)
    (p j : Fin 1024) :
    k0_pay1 (F := Ideal) v0 v2 v5 (ix2 p j)
      = max ((∑ κ : Fin 2048, v0 (ix2 p κ) * v2 (ix3 (0 : Fin 1) κ j)) + v5 (ix3 (0 : Fin 1) (0 : Fin 1) j))
          (Ideal.ofBits .f32 0x00000000#32) := by
  unfold k0_pay1
  show max ((addf (FloatOps.matmul (DotDims.plain 1024 2048 1024) none
        (shapeCast S1024x2048 v0 shapeCasts_S1024x2048_S1024x2048) (shapeCast S2048x1024 v2 shapeCasts_S1x2048x1024_S2048x1024)
        (constant (F := Ideal) ⟨2, ![1024, 1024]⟩ .f32 0x00000000#32))
      (broadcastTo ⟨2, ![1024, 1024]⟩ (shapeCast S1x1024 v5 shapeCasts_S1x1x1024_S1x1024) broadcasts_S1x1024_S1024x1024)) (ix2 p j))
    (Ideal.ofBits .f32 0x00000000#32) = _
  rw [block_dense_apply]
  unfold denseAt
  beta_reduce
  rw [shapeCast_self, dropLead_apply]
  congr 1
  congr 1
  exact Finset.sum_congr rfl fun κ _ => by rw [dropLead_apply]

/-- A first store: the chunk's product with a piece of W2, the bias row added, as a [1, 1024, 512] block. -/
theorem first_apply (h : FVec Ideal S1024x1024 .bf16) (w : FVec Ideal S1x1024x512 .bf16) (b : FVec Ideal S1x1x512 .f32)
    (p : Fin 1024) (q : Fin 512) :
    k0_pay5 (F := Ideal) h w b (ix3 (0 : Fin 1) p q)
      = (∑ j : Fin 1024, h (ix2 p j) * w (ix3 (0 : Fin 1) j q)) + b (ix3 (0 : Fin 1) (0 : Fin 1) q) := by
  unfold k0_pay5
  show shapeCast ⟨3, ![1, 1024, 512]⟩ (addf (FloatOps.matmul (DotDims.plain 1024 1024 512) none h
        (shapeCast S1024x512 w shapeCasts_S1x1024x512_S1024x512) (constant (F := Ideal) ⟨2, ![1024, 512]⟩ .f32 0x00000000#32))
      (broadcastTo ⟨2, ![1024, 512]⟩ (shapeCast S1x512 b shapeCasts_S1x1x512_S1x512) broadcasts_S1x512_S1024x512))
    shapeCasts_S1024x512_S1x1024x512 (ix3 (0 : Fin 1) p q) = _
  rw [addLead_apply, block_dense_apply]
  unfold denseAt
  beta_reduce
  rw [dropLead_apply]
  congr 1
  exact Finset.sum_congr rfl fun j _ => by rw [dropLead_apply]

/-- An accumulating store: what the rectangle held, plus the chunk's product with a piece of W2. -/
theorem accum_apply (h : FVec Ideal S1024x1024 .bf16) (w : FVec Ideal S1x1024x512 .bf16) (prev : FVec Ideal S1x1024x512 .f32)
    (p : Fin 1024) (q : Fin 512) :
    k0_pay13 (F := Ideal) h w prev (ix3 (0 : Fin 1) p q)
      = prev (ix3 (0 : Fin 1) p q) + ∑ j : Fin 1024, h (ix2 p j) * w (ix3 (0 : Fin 1) j q) := by
  unfold k0_pay13
  show shapeCast ⟨3, ![1, 1024, 512]⟩ (addf (shapeCast S1024x512 prev shapeCasts_S1x1024x512_S1024x512)
      (FloatOps.matmul (DotDims.plain 1024 1024 512) none h
        (shapeCast S1024x512 w shapeCasts_S1x1024x512_S1024x512) (constant (F := Ideal) ⟨2, ![1024, 512]⟩ .f32 0x00000000#32)))
    shapeCasts_S1024x512_S1x1024x512 (ix3 (0 : Fin 1) p q) = _
  rw [addLead_apply, addf_apply, dropLead_apply, matmul_plain_zero_apply]
  congr 1
  exact Finset.sum_congr rfl fun j _ => by rw [dropLead_apply]

end Cert.KernelIdeal.Block

end
-- ==== Proof.SumSplit.lean ====
/-
  A sum over a hidden axis of 4096 places, cut into four consecutive chunks of 1024.

  The kernel accumulates a contraction over the hidden axis chunk by chunk, adding the bias to the first chunk's
  partial sum; the reference contracts the whole axis at once and adds the bias last.  Both are the same element of
  any additive commutative monoid: only commutativity and associativity of addition are used, so the law holds on
  the extended reals with the infinities included, and no finiteness of the summands is needed.
-/
import Mathlib.Algebra.BigOperators.Fin
import Mathlib.Tactic.Abel

namespace Cert.SumSplit

open Finset

variable {M : Type*} [AddCommMonoid M]

/-- A sum over `Fin (a + b)` is the sum over its first `a` places plus the sum over its last `b` places. -/
theorem sum_split (a b : ℕ) (g : Fin (a + b) → M) :
    ∑ h : Fin (a + b), g h
      = ∑ j : Fin a, g ⟨j.val, by have := j.isLt; omega⟩ + ∑ j : Fin b, g ⟨a + j.val, by have := j.isLt; omega⟩ := by
  rw [Fin.sum_univ_add]
  rfl

/-- The whole contraction plus the bias is the chunk-by-chunk accumulation that starts from the first chunk's sum
    plus the bias.  The four chunk summands `g0 … g3` are given up to pointwise equality with `g` at the places
    `j`, `1024 + j`, `2048 + j`, `3072 + j`, so that a caller is free in how it spells those indices. -/
theorem sum_4096_chunks (g : Fin 4096 → M) (b : M) (g0 g1 g2 g3 : Fin 1024 → M)
    (h0 : ∀ j : Fin 1024, g0 j = g ⟨j.val, by have := j.isLt; omega⟩)
    (h1 : ∀ j : Fin 1024, g1 j = g ⟨1024 + j.val, by have := j.isLt; omega⟩)
    (h2 : ∀ j : Fin 1024, g2 j = g ⟨2048 + j.val, by have := j.isLt; omega⟩)
    (h3 : ∀ j : Fin 1024, g3 j = g ⟨3072 + j.val, by have := j.isLt; omega⟩) :
    (∑ h : Fin 4096, g h) + b
      = (((∑ j : Fin 1024, g0 j + b) + ∑ j : Fin 1024, g1 j) + ∑ j : Fin 1024, g2 j) + ∑ j : Fin 1024, g3 j := by
  have e1 := sum_split 1024 3072 (g : Fin (1024 + 3072) → M)
  have e2 := sum_split 1024 2048
    (fun j : Fin (1024 + 2048) => g ⟨1024 + j.val, by have := j.isLt; omega⟩)
  have e3 := sum_split 1024 1024
    (fun j : Fin (1024 + 1024) => g ⟨1024 + (1024 + j.val), by have := j.isLt; omega⟩)
  have s0 : ∑ j : Fin 1024, g0 j = ∑ j : Fin 1024, g ⟨j.val, by have := j.isLt; omega⟩ :=
    Finset.sum_congr rfl fun j _ => h0 j
  have s1 : ∑ j : Fin 1024, g1 j = ∑ j : Fin 1024, g ⟨1024 + j.val, by have := j.isLt; omega⟩ :=
    Finset.sum_congr rfl fun j _ => h1 j
  have s2 : ∑ j : Fin 1024, g2 j = ∑ j : Fin 1024, g ⟨1024 + (1024 + j.val), by have := j.isLt; omega⟩ :=
    Finset.sum_congr rfl fun j _ => (h2 j).trans (congrArg g (Fin.ext (by show 2048 + j.val = 1024 + (1024 + j.val); omega)))
  have s3 : ∑ j : Fin 1024, g3 j = ∑ j : Fin 1024, g ⟨1024 + (1024 + (1024 + j.val)), by have := j.isLt; omega⟩ :=
    Finset.sum_congr rfl fun j _ => (h3 j).trans (congrArg g (Fin.ext (by show 3072 + j.val = 1024 + (1024 + (1024 + j.val)); omega)))
  rw [s0, s1, s2, s3]
  show (∑ h : Fin (1024 + 3072), g h) + b = _
  rw [e1]
  show (_ + ∑ j : Fin (1024 + 2048), g ⟨1024 + j.val, _⟩) + b = _
  rw [e2]
  show (_ + (_ + ∑ j : Fin (1024 + 1024), g ⟨1024 + (1024 + j.val), _⟩)) + b = _
  rw [e3]
  abel

end Cert.SumSplit
-- ==== Proof.Column.lean ====
/-
  One column rectangle of the output block, after all four hidden chunks.

  On a block the body's result at token `p` and feature `d` should be

      (Σ_{h < 4096} relu(Σ_κ x(p, κ) · W1(κ, h) + b1(h)) · W2(h, d)) + b2(d)

  of the blocks it was given (`blockSpec`).  What the last store of a column rectangle holds is the accumulation, over the
  four chunks of the hidden axis, of each chunk's product, starting from the first chunk's product plus the bias: chunk
  `k` reads columns 1024·k … of W1 and b1 and rows 1024·k … of W2.  Cutting the sum over the hidden axis into those four
  chunks identifies the two.
-/
import proofs.«111104_g89558658056817_cont_sun_c4_558_18_alg».proof.Proof.Block
import proofs.«111104_g89558658056817_cont_sun_c4_558_18_alg».proof.Proof.SumSplit

noncomputable section

namespace Cert.KernelIdeal.Block

open Cert.KernelIdeal Cert.KernelIdeal.Gen Idealize.ShloMosaic Idealize.ShloMosaic.ValueIdx

/-- A token's activation of hidden unit `h`, from the blocks the body is given. -/
def hidB (x0 : FVec Ideal S1024x2048 .bf16) (x1 : FVec Ideal S1x2048x4096 .bf16) (x2 : FVec Ideal S1x1x4096 .f32)
    (p : Fin 1024) (h : Fin 4096) : EReal :=
  max ((∑ κ : Fin 2048, x0 (ix2 p κ) * x1 (ix3 (0 : Fin 1) κ h)) + x2 (ix3 (0 : Fin 1) (0 : Fin 1) h))
    (Ideal.ofBits .f32 0x00000000#32)

/-- The body's result on a block, at token `p` and feature `d`. -/
def blockSpec (x0 : FVec Ideal S1024x2048 .bf16) (x1 : FVec Ideal S1x2048x4096 .bf16) (x2 : FVec Ideal S1x1x4096 .f32)
    (x3 : FVec Ideal S1x4096x2048 .bf16) (x4 : FVec Ideal S1x1x2048 .f32) (p : Fin 1024) (d : Fin 2048) : EReal :=
  (∑ h : Fin 4096, hidB x0 x1 x2 p h * x3 (ix3 (0 : Fin 1) h d)) + x4 (ix3 (0 : Fin 1) (0 : Fin 1) d)

/-- The final contents of the column rectangle at column offset `o`: three accumulating stores over a first store, each
    over its chunk's hidden activations.  The pieces of W1, b1, W2, b2 each chunk loads are given by what they read of
    the blocks. -/
theorem column_out (x0 : FVec Ideal S1024x2048 .bf16) (x1 : FVec Ideal S1x2048x4096 .bf16) (x2 : FVec Ideal S1x1x4096 .f32)
    (x3 : FVec Ideal S1x4096x2048 .bf16) (x4 : FVec Ideal S1x1x2048 .f32) (o : Nat) (ho : o + 512 ≤ 2048)
    (w1_0 w1_1 w1_2 w1_3 : FVec Ideal S1x2048x1024 .bf16) (b1_0 b1_1 b1_2 b1_3 : FVec Ideal S1x1x1024 .f32)
    (w2_0 w2_1 w2_2 w2_3 : FVec Ideal S1x1024x512 .bf16) (b2c : FVec Ideal S1x1x512 .f32)
    (hw1_0 : ∀ (κ : Fin 2048) (j : Fin 1024), w1_0 (ix3 (0 : Fin 1) κ j) = x1 (ix3 (0 : Fin 1) κ ⟨j.val, by have := j.isLt; omega⟩))
    (hb1_0 : ∀ j : Fin 1024, b1_0 (ix3 (0 : Fin 1) (0 : Fin 1) j) = x2 (ix3 (0 : Fin 1) (0 : Fin 1) ⟨j.val, by have := j.isLt; omega⟩))
    (hw2_0 : ∀ (j : Fin 1024) (q : Fin 512), w2_0 (ix3 (0 : Fin 1) j q) = x3 (ix3 (0 : Fin 1) ⟨j.val, by have := j.isLt; omega⟩ ⟨o + q.val, by have := q.isLt; omega⟩))
    (hw1_1 : ∀ (κ : Fin 2048) (j : Fin 1024), w1_1 (ix3 (0 : Fin 1) κ j) = x1 (ix3 (0 : Fin 1) κ ⟨1024 + j.val, by have := j.isLt; omega⟩))
    (hb1_1 : ∀ j : Fin 1024, b1_1 (ix3 (0 : Fin 1) (0 : Fin 1) j) = x2 (ix3 (0 : Fin 1) (0 : Fin 1) ⟨1024 + j.val, by have := j.isLt; omega⟩))
    (hw2_1 : ∀ (j : Fin 1024) (q : Fin 512), w2_1 (ix3 (0 : Fin 1) j q) = x3 (ix3 (0 : Fin 1) ⟨1024 + j.val, by have := j.isLt; omega⟩ ⟨o + q.val, by have := q.isLt; omega⟩))
    (hw1_2 : ∀ (κ : Fin 2048) (j : Fin 1024), w1_2 (ix3 (0 : Fin 1) κ j) = x1 (ix3 (0 : Fin 1) κ ⟨2048 + j.val, by have := j.isLt; omega⟩))
    (hb1_2 : ∀ j : Fin 1024, b1_2 (ix3 (0 : Fin 1) (0 : Fin 1) j) = x2 (ix3 (0 : Fin 1) (0 : Fin 1) ⟨2048 + j.val, by have := j.isLt; omega⟩))
    (hw2_2 : ∀ (j : Fin 1024) (q : Fin 512), w2_2 (ix3 (0 : Fin 1) j q) = x3 (ix3 (0 : Fin 1) ⟨2048 + j.val, by have := j.isLt; omega⟩ ⟨o + q.val, by have := q.isLt; omega⟩))
    (hw1_3 : ∀ (κ : Fin 2048) (j : Fin 1024), w1_3 (ix3 (0 : Fin 1) κ j) = x1 (ix3 (0 : Fin 1) κ ⟨3072 + j.val, by have := j.isLt; omega⟩))
    (hb1_3 : ∀ j : Fin 1024, b1_3 (ix3 (0 : Fin 1) (0 : Fin 1) j) = x2 (ix3 (0 : Fin 1) (0 : Fin 1) ⟨3072 + j.val, by have := j.isLt; omega⟩))
    (hw2_3 : ∀ (j : Fin 1024) (q : Fin 512), w2_3 (ix3 (0 : Fin 1) j q) = x3 (ix3 (0 : Fin 1) ⟨3072 + j.val, by have := j.isLt; omega⟩ ⟨o + q.val, by have := q.isLt; omega⟩))
    (hb2 : ∀ q : Fin 512, b2c (ix3 (0 : Fin 1) (0 : Fin 1) q) = x4 (ix3 (0 : Fin 1) (0 : Fin 1) ⟨o + q.val, by have := q.isLt; omega⟩))
    (p : Fin 1024) (q : Fin 512) :
    k0_pay13 (F := Ideal) (k0_pay1 (F := Ideal) x0 w1_3 b1_3) w2_3
        (k0_pay13 (F := Ideal) (k0_pay1 (F := Ideal) x0 w1_2 b1_2) w2_2
          (k0_pay13 (F := Ideal) (k0_pay1 (F := Ideal) x0 w1_1 b1_1) w2_1
            (k0_pay5 (F := Ideal) (k0_pay1 (F := Ideal) x0 w1_0 b1_0) w2_0 b2c))) (ix3 (0 : Fin 1) p q)
      = blockSpec x0 x1 x2 x3 x4 p ⟨o + q.val, by have := q.isLt; omega⟩ := by
  rw [accum_apply, accum_apply, accum_apply, first_apply, hb2]
  unfold blockSpec
  exact (Cert.SumSplit.sum_4096_chunks
    (fun h : Fin 4096 => hidB x0 x1 x2 p h * x3 (ix3 (0 : Fin 1) h ⟨o + q.val, by have := q.isLt; omega⟩))
    (x4 (ix3 (0 : Fin 1) (0 : Fin 1) ⟨o + q.val, by have := q.isLt; omega⟩))
    (fun j => k0_pay1 (F := Ideal) x0 w1_0 b1_0 (ix2 p j) * w2_0 (ix3 (0 : Fin 1) j q))
    (fun j => k0_pay1 (F := Ideal) x0 w1_1 b1_1 (ix2 p j) * w2_1 (ix3 (0 : Fin 1) j q))
    (fun j => k0_pay1 (F := Ideal) x0 w1_2 b1_2 (ix2 p j) * w2_2 (ix3 (0 : Fin 1) j q))
    (fun j => k0_pay1 (F := Ideal) x0 w1_3 b1_3 (ix2 p j) * w2_3 (ix3 (0 : Fin 1) j q))
    (fun j => by
      show k0_pay1 (F := Ideal) x0 w1_0 b1_0 (ix2 p j) * w2_0 (ix3 (0 : Fin 1) j q) = hidB x0 x1 x2 p ⟨j.val, by have := j.isLt; omega⟩ * x3 (ix3 (0 : Fin 1) ⟨j.val, by have := j.isLt; omega⟩ ⟨o + q.val, by have := q.isLt; omega⟩)
      rw [hid_apply, hw2_0]
      unfold hidB
      simp only [hw1_0, hb1_0])
    (fun j => by
      show k0_pay1 (F := Ideal) x0 w1_1 b1_1 (ix2 p j) * w2_1 (ix3 (0 : Fin 1) j q) = hidB x0 x1 x2 p ⟨1024 + j.val, by have := j.isLt; omega⟩ * x3 (ix3 (0 : Fin 1) ⟨1024 + j.val, by have := j.isLt; omega⟩ ⟨o + q.val, by have := q.isLt; omega⟩)
      rw [hid_apply, hw2_1]
      unfold hidB
      simp only [hw1_1, hb1_1])
    (fun j => by
      show k0_pay1 (F := Ideal) x0 w1_2 b1_2 (ix2 p j) * w2_2 (ix3 (0 : Fin 1) j q) = hidB x0 x1 x2 p ⟨2048 + j.val, by have := j.isLt; omega⟩ * x3 (ix3 (0 : Fin 1) ⟨2048 + j.val, by have := j.isLt; omega⟩ ⟨o + q.val, by have := q.isLt; omega⟩)
      rw [hid_apply, hw2_2]
      unfold hidB
      simp only [hw1_2, hb1_2])
    (fun j => by
      show k0_pay1 (F := Ideal) x0 w1_3 b1_3 (ix2 p j) * w2_3 (ix3 (0 : Fin 1) j q) = hidB x0 x1 x2 p ⟨3072 + j.val, by have := j.isLt; omega⟩ * x3 (ix3 (0 : Fin 1) ⟨3072 + j.val, by have := j.isLt; omega⟩ ⟨o + q.val, by have := q.isLt; omega⟩)
      rw [hid_apply, hw2_3]
      unfold hidB
      simp only [hw1_3, hb1_3])).symm

end Cert.KernelIdeal.Block

end
-- ==== Proof.Body.lean ====
/-
  The kernel body's result on one block.

  The body fills its [1, 1024, 2048] output block through four column rectangles of 512 columns, each stored four times:
  once per chunk of the hidden axis, the later stores adding to what a load of the same rectangle read back.  A load of
  a rectangle after a list of stores reads the most recent store of that rectangle — the stores of the other three are
  disjoint from it — so what the block holds in the end, at a column of rectangle `n`, is the fourth store of rectangle
  `n` over the third over the second over the first: the accumulation `Column.lean` identifies with `blockSpec`.
-/
import proofs.«111104_g89558658056817_cont_sun_c4_558_18_alg».proof.Proof.Gen.KernelIdeal.Frame
import proofs.«111104_g89558658056817_cont_sun_c4_558_18_alg».proof.Proof.Column
import Idealize.ShloMosaic.Lib.Pipeline.Value
import Idealize.ShloMosaic.Lib.Tactic

set_option maxRecDepth 16384

noncomputable section

namespace Cert.KernelIdeal.Body

open Cert.KernelIdeal Cert.KernelIdeal.Gen Cert.KernelIdeal.Block
open Idealize.ShloMosaic Idealize.ShloMosaic.TcCoe Idealize.ShloMosaic.Tactic Idealize.SL.Sem Idealize.ShloMosaic.ValueIdx

/-! ## Column rectangles of the output block -/

/-- Column rectangles at offsets at least 512 apart share no index. -/
theorem col_disjoint (o o' : Nat)
    (inb : ∀ a, (![0, 0, o] : Fin 3 → Nat) a + (![1, 1024, 512] : Fin 3 → Nat) a ≤ S1x1024x2048.size a)
    (inb' : ∀ a, (![0, 0, o'] : Fin 3 → Nat) a + (![1, 1024, 512] : Fin 3 → Nat) a ≤ S1x1024x2048.size a)
    (h : o + 512 ≤ o' ∨ o' + 512 ≤ o) :
    Disjoint (Rect.unit (s := S1x1024x2048) ![0, 0, o] ![1, 1024, 512] inb).set
      (Rect.unit (s := S1x1024x2048) ![0, 0, o'] ![1, 1024, 512] inb').set :=
  Rect.unit_disjoint (inb := inb) (inb' := inb') (2 : Fin 3) (by show o + 512 ≤ o' ∨ o' + 512 ≤ o; exact h)

/-- A load of one column rectangle does not see a store of another. -/
theorem readCov_skip {sig : RefSig} {κ : Kind} {sp : Space} (v : View sig κ sp S1x1024x2048 .f32) (o o' : Nat)
    (inb : ∀ a, (![0, 0, o] : Fin 3 → Nat) a + (![1, 1024, 512] : Fin 3 → Nat) a ≤ S1x1024x2048.size a)
    (inb' : ∀ a, (![0, 0, o'] : Fin 3 → Nat) a + (![1, 1024, 512] : Fin 3 → Nat) a ≤ S1x1024x2048.size a)
    (w : (Rect.unit (s := S1x1024x2048) ![0, 0, o] ![1, 1024, 512] inb).shape.Idx → Elt Ideal .f32)
    (L : List (View.Piece (Elt Ideal) S1x1024x2048 .f32)) (h : o + 512 ≤ o' ∨ o' + 512 ≤ o) :
    v.readCov (⟨Rect.unit (s := S1x1024x2048) ![0, 0, o] ![1, 1024, 512] inb, w⟩ :: L)
        (Rect.unit (s := S1x1024x2048) ![0, 0, o'] ![1, 1024, 512] inb').toLoadRect
      = v.readCov L (Rect.unit (s := S1x1024x2048) ![0, 0, o'] ![1, 1024, 512] inb').toLoadRect :=
  View.readCov_cons_of_disjoint v _ L _
    (col_disjoint o o' inb inb' h)

/-- Nor does the block's final contents at an index of one column rectangle. -/
theorem canon_skip (o o' : Nat)
    (inb : ∀ a, (![0, 0, o] : Fin 3 → Nat) a + (![1, 1024, 512] : Fin 3 → Nat) a ≤ S1x1024x2048.size a)
    (inb' : ∀ a, (![0, 0, o'] : Fin 3 → Nat) a + (![1, 1024, 512] : Fin 3 → Nat) a ≤ S1x1024x2048.size a)
    (w : (Rect.unit (s := S1x1024x2048) ![0, 0, o'] ![1, 1024, 512] inb').shape.Idx → Elt Ideal .f32)
    (L : List (View.Piece (Elt Ideal) S1x1024x2048 .f32))
    (x : (Rect.unit (s := S1x1024x2048) ![0, 0, o] ![1, 1024, 512] inb).shape.Idx) (h : o + 512 ≤ o' ∨ o' + 512 ≤ o) :
    View.canon (⟨Rect.unit (s := S1x1024x2048) ![0, 0, o'] ![1, 1024, 512] inb', w⟩ :: L)
        ((Rect.unit (s := S1x1024x2048) ![0, 0, o] ![1, 1024, 512] inb).emb x)
      = View.canon L ((Rect.unit (s := S1x1024x2048) ![0, 0, o] ![1, 1024, 512] inb).emb x) :=
  View.canon_cons_of_not_mem _ L fun hm =>
    Finset.disjoint_left.mp (col_disjoint o o' inb inb' h)
      ((Rect.unit (s := S1x1024x2048) ![0, 0, o] ![1, 1024, 512] inb).toLoadRect.idx_mem x) hm

/-- Index (0, p, q) of the column rectangle at offset `o` is index (0, p, o + q) of the block. -/
theorem emb_col (o : Nat)
    (inb : ∀ a, (![0, 0, o] : Fin 3 → Nat) a + (![1, 1024, 512] : Fin 3 → Nat) a ≤ S1x1024x2048.size a)
    (ho : o + 512 ≤ 2048) (p : Fin 1024) (q : Fin 512) :
    (Rect.unit (s := S1x1024x2048) ![0, 0, o] ![1, 1024, 512] inb).emb (ix3 (0 : Fin 1) p q)
      = ix3 (0 : Fin 1) p (⟨o + q.val, by have := q.isLt; omega⟩ : Fin 2048) := by
  funext a
  apply Fin.ext
  match a with
  | ⟨0, _⟩ => show 0 + 1 * 0 = 0; rfl
  | ⟨1, _⟩ => show 0 + 1 * p.val = p.val; omega
  | ⟨2, _⟩ => show o + 1 * q.val = o + q.val; omega

/-- A unit-stride rectangle of a rank-3 shape sends (i, j, k) to the offsets plus (i, j, k). -/
theorem unit_idx3 {A B C a b c : Nat} (oa ob oc : Nat)
    (inb : ∀ ax, (![oa, ob, oc] : Fin 3 → Nat) ax + (![a, b, c] : Fin 3 → Nat) ax ≤ (⟨3, ![A, B, C]⟩ : Shape).size ax)
    (i : Fin a) (j : Fin b) (k : Fin c) (i' : Fin A) (j' : Fin B) (k' : Fin C)
    (hi : i'.val = oa + i.val) (hj : j'.val = ob + j.val) (hk : k'.val = oc + k.val) :
    (Rect.unit (s := ⟨3, ![A, B, C]⟩) ![oa, ob, oc] ![a, b, c] inb).idx (ix3 i j k) = ix3 i' j' k' := by
  funext ax
  apply Fin.ext
  match ax with
  | ⟨0, _⟩ => show oa + 1 * i.val = i'.val; omega
  | ⟨1, _⟩ => show ob + 1 * j.val = j'.val; omega
  | ⟨2, _⟩ => show oc + 1 * k.val = k'.val; omega

theorem hz2 : (![0, 0] : Fin 2 → Nat) = fun _ => 0 := funext fun a => by fin_cases a <;> rfl

/-! ## The payloads' names

The printed body is cut into parts, and a value that crosses a cut is named on its own; so the sixteen stores' payloads
carry different names for the same three terms: a chunk's hidden activations (`k0_pay1`), a first store (`k0_pay5`)
and an accumulating store (`k0_pay13`). -/

theorem pay26 (h : FVec Ideal S1024x1024 .bf16) (w : Vec Ideal S1x1024x512 .bf16) (prev : Vec Ideal S1x1024x512 .f32) :
    k0_pay26 (F := Ideal) h w prev = k0_pay13 (F := Ideal) h w prev := rfl
theorem pay25 (h : FVec Ideal S1024x1024 .bf16) (w : Vec Ideal S1x1024x512 .bf16) (prev : Vec Ideal S1x1024x512 .f32) :
    k0_pay25 (F := Ideal) h w prev = k0_pay13 (F := Ideal) h w prev := rfl
theorem pay24 (h : FVec Ideal S1024x1024 .bf16) (w : Vec Ideal S1x1024x512 .bf16) (prev : Vec Ideal S1x1024x512 .f32) :
    k0_pay24 (F := Ideal) h (k0_pay23 (F := Ideal) w) (constant (F := Ideal) S1024x512 .f32 0x00000000#32) prev = k0_pay13 (F := Ideal) h w prev := rfl
theorem pay22 (a : Vec Ideal S1024x2048 .bf16) (b : Vec Ideal S1x2048x1024 .bf16) (c : Vec Ideal S1x1x1024 .f32)
    (w : Vec Ideal S1x1024x512 .bf16) (prev : Vec Ideal S1x1024x512 .f32) :
    k0_pay22 (F := Ideal) a b c w prev = k0_pay13 (F := Ideal) (k0_pay21 (F := Ideal) a b c) w prev := rfl
theorem pay21 (a : Vec Ideal S1024x2048 .bf16) (b : Vec Ideal S1x2048x1024 .bf16) (c : Vec Ideal S1x1x1024 .f32) :
    k0_pay21 (F := Ideal) a b c = k0_pay1 (F := Ideal) a b c := rfl
theorem pay14 (a : Vec Ideal S1024x2048 .bf16) (b : Vec Ideal S1x2048x1024 .bf16) (c : Vec Ideal S1x1x1024 .f32) :
    k0_pay14 (F := Ideal) a b c = k0_pay1 (F := Ideal) a b c := rfl
theorem pay20 (h : FVec Ideal S1024x1024 .bf16) (w : Vec Ideal S1x1024x512 .bf16) (prev : Vec Ideal S1x1024x512 .f32) :
    k0_pay20 (F := Ideal) (k0_pay19 (F := Ideal) h w) prev = k0_pay13 (F := Ideal) h w prev := rfl
theorem pay18 (h : FVec Ideal S1024x1024 .bf16) (w : Vec Ideal S1x1024x512 .bf16) (prev : Vec Ideal S1x1024x512 .f32) :
    k0_pay18 (F := Ideal) h w prev = k0_pay13 (F := Ideal) h w prev := rfl
theorem pay17 (h : FVec Ideal S1024x1024 .bf16) (w : Vec Ideal S1x1024x512 .bf16) (prev : Vec Ideal S1x1024x512 .f32) :
    k0_pay17 (F := Ideal) h w prev = k0_pay13 (F := Ideal) h w prev := rfl
theorem pay16 (a : Vec Ideal S1024x2048 .bf16) (b : Vec Ideal S1x2048x1024 .bf16) (c : Vec Ideal S1x1x1024 .f32)
    (w : Vec Ideal S1x1024x512 .bf16) (prev : Vec Ideal S1x1024x512 .f32) :
    k0_pay16 (F := Ideal) (k0_pay15 (F := Ideal) a b c w) prev = k0_pay13 (F := Ideal) (k0_pay14 (F := Ideal) a b c) w prev := rfl
theorem pay12 (v56 : FVec Ideal S1024x1024 .f32) (v57 : Vec Ideal S1x1x1024 .f32) (w : Vec Ideal S1x1024x512 .bf16)
    (prev : Vec Ideal S1x1024x512 .f32) : k0_pay12 (F := Ideal) (k0_pay11 (F := Ideal) v56 v57 w) prev = k0_pay13 (F := Ideal) (k0_pay8 (F := Ideal) v56 v57) w prev := rfl
theorem pay10 (v56 : FVec Ideal S1024x1024 .f32) (v57 : Vec Ideal S1x1x1024 .f32) (w : Vec Ideal S1x1024x512 .bf16)
    (prev : Vec Ideal S1x1024x512 .f32) : k0_pay10 (F := Ideal) v56 v57 w prev = k0_pay13 (F := Ideal) (k0_pay8 (F := Ideal) v56 v57) w prev := rfl
theorem pay9 (v56 : FVec Ideal S1024x1024 .f32) (v57 : Vec Ideal S1x1x1024 .f32) (w : Vec Ideal S1x1024x512 .bf16)
    (prev : Vec Ideal S1x1024x512 .f32) : k0_pay9 (F := Ideal) v56 v57 w prev = k0_pay13 (F := Ideal) (k0_pay8 (F := Ideal) v56 v57) w prev := rfl
theorem pay8 (a : Vec Ideal S1024x2048 .bf16) (b : Vec Ideal S1x2048x1024 .bf16) (c : Vec Ideal S1x1x1024 .f32) :
    k0_pay8 (F := Ideal) (k0_pay7 (F := Ideal) a b) c = k0_pay1 (F := Ideal) a b c := rfl
theorem pay6 (h : FVec Ideal S1024x1024 .bf16) (w : Vec Ideal S1x1024x512 .bf16) (b : Vec Ideal S1x1x512 .f32) :
    k0_pay6 (F := Ideal) h w b = k0_pay5 (F := Ideal) h w b := rfl
theorem pay4 (a : Vec Ideal S1024x2048 .bf16) (b : Vec Ideal S1x2048x1024 .bf16) (c : Vec Ideal S1x1x1024 .f32)
    (w : Vec Ideal S1x1024x512 .bf16) (b2 : Vec Ideal S1x1x512 .f32) :
    k0_pay4 (F := Ideal) (k0_pay3 (F := Ideal) a b c w b2) = k0_pay5 (F := Ideal) (k0_pay1 (F := Ideal) a b c) w b2 := rfl
theorem pay2 (a : Vec Ideal S1024x2048 .bf16) (b : Vec Ideal S1x2048x1024 .bf16) (c : Vec Ideal S1x1x1024 .f32)
    (w : Vec Ideal S1x1024x512 .bf16) (b2 : Vec Ideal S1x1x512 .f32) :
    k0_pay2 (F := Ideal) a b c w b2 = k0_pay5 (F := Ideal) (k0_pay1 (F := Ideal) a b c) w b2 := rfl

/-! ## The body's result -/

set_option maxHeartbeats 4000000 in
/-- What the body leaves in the output's staging buffer, at token `p` of the block and feature `d`, is `blockSpec` of the
    blocks it was given. -/
theorem body_out (c : Dev nD) (i : grid0.Coords) (arg2 : Memref sig .tc .vmem S1024x2048 .bf16) (harg2 : arg2.IsWhole) (arg3 : Memref sig .tc .vmem S1x2048x4096 .bf16) (harg3 : arg3.IsWhole) (arg4 : Memref sig .tc .vmem S1x1x4096 .f32) (harg4 : arg4.IsWhole) (arg5 : Memref sig .tc .vmem S1x4096x2048 .bf16) (harg5 : arg5.IsWhole) (arg6 : Memref sig .tc .vmem S1x1x2048 .f32) (harg6 : arg6.IsWhole) (arg7 : Memref sig .tc .vmem S1x1024x2048 .f32) (harg7 : arg7.IsWhole)
    (x0 : Vec Ideal S1024x2048 .bf16) (x1 : Vec Ideal S1x2048x4096 .bf16) (x2 : Vec Ideal S1x1x4096 .f32) (x3 : Vec Ideal S1x4096x2048 .bf16) (x4 : Vec Ideal S1x1x2048 .f32)
    (p : Fin 1024) (d : Fin 2048) :
    out0_A_5 (F := Ideal) c i arg2 harg2 arg3 harg3 arg4 harg4 arg5 harg5 arg6 harg6 arg7 harg7 x0 x1 x2 x3 x4 (ix3 (0 : Fin 1) p d) = blockSpec x0 x1 x2 x3 x4 p d := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  sl_unfold_run_names
  simp (disch := omega) only [readCov_skip, View.readCov_cons_toLoadRect]
  have hd := d.isLt
  by_cases h0 : d.val < 512
  ·
    obtain ⟨q, rfl⟩ : ∃ q : Fin 512, d = (⟨0 + q.val, Nat.lt_of_lt_of_le (Nat.add_lt_add_left q.isLt 0) (by decide)⟩ : Fin 2048) :=
      ⟨⟨d.val - 0, by omega⟩, Fin.ext (by show d.val = 0 + (d.val - 0); omega)⟩
    rw [← emb_col 0 inb_S1x1024x2048_S1x1024x512_0_0_0 (by decide) p q]
    simp (disch := omega) only [canon_skip, View.canon_cons_emb]
    simp only [pay26, pay25, pay24, pay22, pay21, pay14, pay20, pay18, pay17, pay16, pay12, pay10, pay9, pay8, pay6, pay4, pay2]
    simp only [View.readAt_eq_ld, harg2.read_unread, harg3.read_unread, harg4.read_unread, harg5.read_unread, harg6.read_unread,
      View.ld_unit_zero (S := S1024x2048) hz2]
    exact column_out x0 x1 x2 x3 x4 0 (by omega) _ _ _ _ _ _ _ _ _ _ _ _ _
      (fun κ j => congrArg x1 (unit_idx3 0 0 0 _ (0 : Fin 1) κ j (0 : Fin 1) κ _ (by simp) (by simp) (by simp)))
      (fun j => congrArg x2 (unit_idx3 0 0 0 _ (0 : Fin 1) (0 : Fin 1) j (0 : Fin 1) (0 : Fin 1) _ (by simp) (by simp) (by simp)))
      (fun j q => congrArg x3 (unit_idx3 0 0 0 _ (0 : Fin 1) j q (0 : Fin 1) _ _ (by simp) (by simp) (by simp)))
      (fun κ j => congrArg x1 (unit_idx3 0 0 1024 _ (0 : Fin 1) κ j (0 : Fin 1) κ _ (by simp) (by simp) (by simp)))
      (fun j => congrArg x2 (unit_idx3 0 0 1024 _ (0 : Fin 1) (0 : Fin 1) j (0 : Fin 1) (0 : Fin 1) _ (by simp) (by simp) (by simp)))
      (fun j q => congrArg x3 (unit_idx3 0 1024 0 _ (0 : Fin 1) j q (0 : Fin 1) _ _ (by simp) (by simp) (by simp)))
      (fun κ j => congrArg x1 (unit_idx3 0 0 2048 _ (0 : Fin 1) κ j (0 : Fin 1) κ _ (by simp) (by simp) (by simp)))
      (fun j => congrArg x2 (unit_idx3 0 0 2048 _ (0 : Fin 1) (0 : Fin 1) j (0 : Fin 1) (0 : Fin 1) _ (by simp) (by simp) (by simp)))
      (fun j q => congrArg x3 (unit_idx3 0 2048 0 _ (0 : Fin 1) j q (0 : Fin 1) _ _ (by simp) (by simp) (by simp)))
      (fun κ j => congrArg x1 (unit_idx3 0 0 3072 _ (0 : Fin 1) κ j (0 : Fin 1) κ _ (by simp) (by simp) (by simp)))
      (fun j => congrArg x2 (unit_idx3 0 0 3072 _ (0 : Fin 1) (0 : Fin 1) j (0 : Fin 1) (0 : Fin 1) _ (by simp) (by simp) (by simp)))
      (fun j q => congrArg x3 (unit_idx3 0 3072 0 _ (0 : Fin 1) j q (0 : Fin 1) _ _ (by simp) (by simp) (by simp)))
      (fun q => congrArg x4 (unit_idx3 0 0 0 _ (0 : Fin 1) (0 : Fin 1) q (0 : Fin 1) (0 : Fin 1) _ (by simp) (by simp) (by simp)))
      p q
  by_cases h1 : d.val < 1024
  ·
    obtain ⟨q, rfl⟩ : ∃ q : Fin 512, d = (⟨512 + q.val, Nat.lt_of_lt_of_le (Nat.add_lt_add_left q.isLt 512) (by decide)⟩ : Fin 2048) :=
      ⟨⟨d.val - 512, by omega⟩, Fin.ext (by show d.val = 512 + (d.val - 512); omega)⟩
    rw [← emb_col 512 inb_S1x1024x2048_S1x1024x512_0_0_512 (by decide) p q]
    simp (disch := omega) only [canon_skip, View.canon_cons_emb]
    simp only [pay26, pay25, pay24, pay22, pay21, pay14, pay20, pay18, pay17, pay16, pay12, pay10, pay9, pay8, pay6, pay4, pay2]
    simp only [View.readAt_eq_ld, harg2.read_unread, harg3.read_unread, harg4.read_unread, harg5.read_unread, harg6.read_unread,
      View.ld_unit_zero (S := S1024x2048) hz2]
    exact column_out x0 x1 x2 x3 x4 512 (by omega) _ _ _ _ _ _ _ _ _ _ _ _ _
      (fun κ j => congrArg x1 (unit_idx3 0 0 0 _ (0 : Fin 1) κ j (0 : Fin 1) κ _ (by simp) (by simp) (by simp)))
      (fun j => congrArg x2 (unit_idx3 0 0 0 _ (0 : Fin 1) (0 : Fin 1) j (0 : Fin 1) (0 : Fin 1) _ (by simp) (by simp) (by simp)))
      (fun j q => congrArg x3 (unit_idx3 0 0 512 _ (0 : Fin 1) j q (0 : Fin 1) _ _ (by simp) (by simp) (by simp)))
      (fun κ j => congrArg x1 (unit_idx3 0 0 1024 _ (0 : Fin 1) κ j (0 : Fin 1) κ _ (by simp) (by simp) (by simp)))
      (fun j => congrArg x2 (unit_idx3 0 0 1024 _ (0 : Fin 1) (0 : Fin 1) j (0 : Fin 1) (0 : Fin 1) _ (by simp) (by simp) (by simp)))
      (fun j q => congrArg x3 (unit_idx3 0 1024 512 _ (0 : Fin 1) j q (0 : Fin 1) _ _ (by simp) (by simp) (by simp)))
      (fun κ j => congrArg x1 (unit_idx3 0 0 2048 _ (0 : Fin 1) κ j (0 : Fin 1) κ _ (by simp) (by simp) (by simp)))
      (fun j => congrArg x2 (unit_idx3 0 0 2048 _ (0 : Fin 1) (0 : Fin 1) j (0 : Fin 1) (0 : Fin 1) _ (by simp) (by simp) (by simp)))
      (fun j q => congrArg x3 (unit_idx3 0 2048 512 _ (0 : Fin 1) j q (0 : Fin 1) _ _ (by simp) (by simp) (by simp)))
      (fun κ j => congrArg x1 (unit_idx3 0 0 3072 _ (0 : Fin 1) κ j (0 : Fin 1) κ _ (by simp) (by simp) (by simp)))
      (fun j => congrArg x2 (unit_idx3 0 0 3072 _ (0 : Fin 1) (0 : Fin 1) j (0 : Fin 1) (0 : Fin 1) _ (by simp) (by simp) (by simp)))
      (fun j q => congrArg x3 (unit_idx3 0 3072 512 _ (0 : Fin 1) j q (0 : Fin 1) _ _ (by simp) (by simp) (by simp)))
      (fun q => congrArg x4 (unit_idx3 0 0 512 _ (0 : Fin 1) (0 : Fin 1) q (0 : Fin 1) (0 : Fin 1) _ (by simp) (by simp) (by simp)))
      p q
  by_cases h2 : d.val < 1536
  ·
    obtain ⟨q, rfl⟩ : ∃ q : Fin 512, d = (⟨1024 + q.val, Nat.lt_of_lt_of_le (Nat.add_lt_add_left q.isLt 1024) (by decide)⟩ : Fin 2048) :=
      ⟨⟨d.val - 1024, by omega⟩, Fin.ext (by show d.val = 1024 + (d.val - 1024); omega)⟩
    rw [← emb_col 1024 inb_S1x1024x2048_S1x1024x512_0_0_1024 (by decide) p q]
    simp (disch := omega) only [canon_skip, View.canon_cons_emb]
    simp only [pay26, pay25, pay24, pay22, pay21, pay14, pay20, pay18, pay17, pay16, pay12, pay10, pay9, pay8, pay6, pay4, pay2]
    simp only [View.readAt_eq_ld, harg2.read_unread, harg3.read_unread, harg4.read_unread, harg5.read_unread, harg6.read_unread,
      View.ld_unit_zero (S := S1024x2048) hz2]
    exact column_out x0 x1 x2 x3 x4 1024 (by omega) _ _ _ _ _ _ _ _ _ _ _ _ _
      (fun κ j => congrArg x1 (unit_idx3 0 0 0 _ (0 : Fin 1) κ j (0 : Fin 1) κ _ (by simp) (by simp) (by simp)))
      (fun j => congrArg x2 (unit_idx3 0 0 0 _ (0 : Fin 1) (0 : Fin 1) j (0 : Fin 1) (0 : Fin 1) _ (by simp) (by simp) (by simp)))
      (fun j q => congrArg x3 (unit_idx3 0 0 1024 _ (0 : Fin 1) j q (0 : Fin 1) _ _ (by simp) (by simp) (by simp)))
      (fun κ j => congrArg x1 (unit_idx3 0 0 1024 _ (0 : Fin 1) κ j (0 : Fin 1) κ _ (by simp) (by simp) (by simp)))
      (fun j => congrArg x2 (unit_idx3 0 0 1024 _ (0 : Fin 1) (0 : Fin 1) j (0 : Fin 1) (0 : Fin 1) _ (by simp) (by simp) (by simp)))
      (fun j q => congrArg x3 (unit_idx3 0 1024 1024 _ (0 : Fin 1) j q (0 : Fin 1) _ _ (by simp) (by simp) (by simp)))
      (fun κ j => congrArg x1 (unit_idx3 0 0 2048 _ (0 : Fin 1) κ j (0 : Fin 1) κ _ (by simp) (by simp) (by simp)))
      (fun j => congrArg x2 (unit_idx3 0 0 2048 _ (0 : Fin 1) (0 : Fin 1) j (0 : Fin 1) (0 : Fin 1) _ (by simp) (by simp) (by simp)))
      (fun j q => congrArg x3 (unit_idx3 0 2048 1024 _ (0 : Fin 1) j q (0 : Fin 1) _ _ (by simp) (by simp) (by simp)))
      (fun κ j => congrArg x1 (unit_idx3 0 0 3072 _ (0 : Fin 1) κ j (0 : Fin 1) κ _ (by simp) (by simp) (by simp)))
      (fun j => congrArg x2 (unit_idx3 0 0 3072 _ (0 : Fin 1) (0 : Fin 1) j (0 : Fin 1) (0 : Fin 1) _ (by simp) (by simp) (by simp)))
      (fun j q => congrArg x3 (unit_idx3 0 3072 1024 _ (0 : Fin 1) j q (0 : Fin 1) _ _ (by simp) (by simp) (by simp)))
      (fun q => congrArg x4 (unit_idx3 0 0 1024 _ (0 : Fin 1) (0 : Fin 1) q (0 : Fin 1) (0 : Fin 1) _ (by simp) (by simp) (by simp)))
      p q
  ·
    obtain ⟨q, rfl⟩ : ∃ q : Fin 512, d = (⟨1536 + q.val, Nat.lt_of_lt_of_le (Nat.add_lt_add_left q.isLt 1536) (by decide)⟩ : Fin 2048) :=
      ⟨⟨d.val - 1536, by omega⟩, Fin.ext (by show d.val = 1536 + (d.val - 1536); omega)⟩
    rw [← emb_col 1536 inb_S1x1024x2048_S1x1024x512_0_0_1536 (by decide) p q]
    simp (disch := omega) only [canon_skip, View.canon_cons_emb]
    simp only [pay26, pay25, pay24, pay22, pay21, pay14, pay20, pay18, pay17, pay16, pay12, pay10, pay9, pay8, pay6, pay4, pay2]
    simp only [View.readAt_eq_ld, harg2.read_unread, harg3.read_unread, harg4.read_unread, harg5.read_unread, harg6.read_unread,
      View.ld_unit_zero (S := S1024x2048) hz2]
    exact column_out x0 x1 x2 x3 x4 1536 (by omega) _ _ _ _ _ _ _ _ _ _ _ _ _
      (fun κ j => congrArg x1 (unit_idx3 0 0 0 _ (0 : Fin 1) κ j (0 : Fin 1) κ _ (by simp) (by simp) (by simp)))
      (fun j => congrArg x2 (unit_idx3 0 0 0 _ (0 : Fin 1) (0 : Fin 1) j (0 : Fin 1) (0 : Fin 1) _ (by simp) (by simp) (by simp)))
      (fun j q => congrArg x3 (unit_idx3 0 0 1536 _ (0 : Fin 1) j q (0 : Fin 1) _ _ (by simp) (by simp) (by simp)))
      (fun κ j => congrArg x1 (unit_idx3 0 0 1024 _ (0 : Fin 1) κ j (0 : Fin 1) κ _ (by simp) (by simp) (by simp)))
      (fun j => congrArg x2 (unit_idx3 0 0 1024 _ (0 : Fin 1) (0 : Fin 1) j (0 : Fin 1) (0 : Fin 1) _ (by simp) (by simp) (by simp)))
      (fun j q => congrArg x3 (unit_idx3 0 1024 1536 _ (0 : Fin 1) j q (0 : Fin 1) _ _ (by simp) (by simp) (by simp)))
      (fun κ j => congrArg x1 (unit_idx3 0 0 2048 _ (0 : Fin 1) κ j (0 : Fin 1) κ _ (by simp) (by simp) (by simp)))
      (fun j => congrArg x2 (unit_idx3 0 0 2048 _ (0 : Fin 1) (0 : Fin 1) j (0 : Fin 1) (0 : Fin 1) _ (by simp) (by simp) (by simp)))
      (fun j q => congrArg x3 (unit_idx3 0 2048 1536 _ (0 : Fin 1) j q (0 : Fin 1) _ _ (by simp) (by simp) (by simp)))
      (fun κ j => congrArg x1 (unit_idx3 0 0 3072 _ (0 : Fin 1) κ j (0 : Fin 1) κ _ (by simp) (by simp) (by simp)))
      (fun j => congrArg x2 (unit_idx3 0 0 3072 _ (0 : Fin 1) (0 : Fin 1) j (0 : Fin 1) (0 : Fin 1) _ (by simp) (by simp) (by simp)))
      (fun j q => congrArg x3 (unit_idx3 0 3072 1536 _ (0 : Fin 1) j q (0 : Fin 1) _ _ (by simp) (by simp) (by simp)))
      (fun q => congrArg x4 (unit_idx3 0 0 1536 _ (0 : Fin 1) (0 : Fin 1) q (0 : Fin 1) (0 : Fin 1) _ (by simp) (by simp) (by simp)))
      p q

end Cert.KernelIdeal.Body

end
-- ==== Proof.KernelBlocks.lean ====
/-
  The blocks the kernel body is given, as entries of the argument arrays.

  Before the region the host rounds x, W1 and W2 to bf16 (the identity on the extended reals) and gives b1 and b2 a unit
  middle axis.  The grid has 8 × 8 points; at the point whose output block is (E, T) — expert E, token tile T — the
  windows hand the body rows 1024·T … 1024·T + 1023 of x and row E of W1, b1, W2 and b2.  So every entry the body
  loads is an entry of an argument array at an index computed from the output block's position.
-/
import proofs.«111104_g89558658056817_cont_sun_c4_558_18_alg».proof.Proof.Gen.KernelIdeal.Value
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal

set_option maxRecDepth 16384

noncomputable section

namespace Cert.KernelIdeal.KValue

open Cert.KernelIdeal Cert.KernelIdeal.Gen Idealize.ShloMosaic Idealize.ShloMosaic.TcCoe Idealize.ShloMosaic.Tactic
open Idealize.SL.Sem Idealize.ShloMosaic.StableHlo Idealize.ShloMosaic.ValueIdx

variable (m : (ℓ : Loc nD τ sig) → Buf (Elt Ideal) ℓ)

/-! ## The arrays the windows stage, as the region finds them -/

theorem V_x (c : Dev nD) : @Eq (FVec Ideal S8192x2048 .bf16) (V m c main_call0_v0)
    (truncf .bf16 (m ((c : Thread nD τ).loc main_arg0) : FVec Ideal S8192x2048 .f32) bitsLt_bf16_f32) := by
  dsimp only [V, hostOps0]; after_results; rfl

theorem V_w1 (c : Dev nD) : @Eq (FVec Ideal S8x2048x4096 .bf16) (V m c main_call0_v1)
    (truncf .bf16 (m ((c : Thread nD τ).loc main_arg1) : FVec Ideal S8x2048x4096 .f32) bitsLt_bf16_f32) := by
  dsimp only [V, hostOps0]; after_results; rfl

theorem V_w2 (c : Dev nD) : @Eq (FVec Ideal S8x4096x2048 .bf16) (V m c main_call0_v2)
    (truncf .bf16 (m ((c : Thread nD τ).loc main_arg3) : FVec Ideal S8x4096x2048 .f32) bitsLt_bf16_f32) := by
  dsimp only [V, hostOps0]; after_results; rfl

theorem V_b1 (c : Dev nD) : @Eq (FVec Ideal S8x1x4096 .f32) (V m c main_call0_v3)
    (shapeCast S8x1x4096 (m ((c : Thread nD τ).loc main_arg2) : FVec Ideal S8x4096 .f32) shapeCasts_S8x4096_S8x1x4096) := by
  dsimp only [V, hostOps0]; after_results; rfl

theorem V_b2 (c : Dev nD) : @Eq (FVec Ideal S8x1x2048 .f32) (V m c main_call0_v4)
    (shapeCast S8x1x2048 (m ((c : Thread nD τ).loc main_arg4) : FVec Ideal S8x2048 .f32) shapeCasts_S8x2048_S8x1x2048) := by
  dsimp only [V, hostOps0]; after_results; rfl

/-! ## The index maps over the grid -/

/-- At every grid point the input windows' block indices are read off the output window's: x follows the token tile,
    W1, b1, W2, b2 follow the expert, every other block coordinate is 0; and the output's stay in range. -/
theorem idx_facts : ∀ t : Fin cfg0.N,
    win0_0.index t (0 : Fin 2) = win0_5.index t (1 : Fin 3) ∧ win0_0.index t (1 : Fin 2) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_5.index t (2 : Fin 3) = 0 ∧ win0_5.index t (0 : Fin 3) ≤ 7 ∧ win0_5.index t (1 : Fin 3) ≤ 7 :=
  (by decide +kernel : ∀ t : Fin grid0.N, _)

/-- Every output block position is some grid point's. -/
theorem idx_onto : ∀ (e : Fin 8) (tt : Fin 8), ∃ t : Fin cfg0.N, win0_5.index t = ![e.val, tt.val, 0] :=
  (by decide +kernel : ∀ (e : Fin 8) (tt : Fin 8), ∃ t : Fin grid0.N, win0_5.index t = ![e.val, tt.val, 0])

/-! ## Each input block at an entry -/

/-- x's block: entry (p, κ) is x at (1024·T + p, κ). -/
theorem blk_x_apply (c : Dev nD) (t : Fin cfg0.N) (p : Fin 1024) (κ : Fin 2048) (R : Fin 8192)
    (hR : R.val = win0_5.index t (1 : Fin 3) * 1024 + p.val) :
    (iblk m c 0 t : FVec Ideal S1024x2048 .bf16) (ix2 p κ)
      = (m ((c : Thread nD τ).loc main_arg0) : FVec Ideal S8192x2048 .f32) (ix2 R κ) := by
  obtain ⟨e0, e1, -⟩ := idx_facts t
  unfold iblk
  rw [View.read_apply]
  show (V m c main_call0_v0 : FVec Ideal S8192x2048 .bf16) _ = _
  rw [V_x]
  show (m ((c : Thread nD τ).loc main_arg0) : FVec Ideal S8192x2048 .f32) _ = _
  congr 1
  funext a
  apply Fin.ext
  match a with
  | ⟨0, _⟩ => show win0_0.index t (0 : Fin 2) * 1024 + 1 * p.val = R.val; rw [e0, hR]; omega
  | ⟨1, _⟩ => show win0_0.index t (1 : Fin 2) * 2048 + 1 * κ.val = κ.val; rw [e1]; omega

/-- W1's block: entry (0, κ, h) is W1 at (E, κ, h). -/
theorem blk_w1_apply (c : Dev nD) (t : Fin cfg0.N) (κ : Fin 2048) (h : Fin 4096) (E : Fin 8)
    (hE : E.val = win0_5.index t (0 : Fin 3)) :
    (iblk m c 1 t : FVec Ideal S1x2048x4096 .bf16) (ix3 (0 : Fin 1) κ h)
      = (m ((c : Thread nD τ).loc main_arg1) : FVec Ideal S8x2048x4096 .f32) (ix3 E κ h) := by
  obtain ⟨-, -, e0, e1, e2, -⟩ := idx_facts t
  unfold iblk
  rw [View.read_apply]
  show (V m c main_call0_v1 : FVec Ideal S8x2048x4096 .bf16) _ = _
  rw [V_w1]
  show (m ((c : Thread nD τ).loc main_arg1) : FVec Ideal S8x2048x4096 .f32) _ = _
  congr 1
  funext a
  apply Fin.ext
  match a with
  | ⟨0, _⟩ => show win0_1.index t (0 : Fin 3) * 1 + 1 * 0 = E.val; rw [e0, hE]; omega
  | ⟨1, _⟩ => show win0_1.index t (1 : Fin 3) * 2048 + 1 * κ.val = κ.val; rw [e1]; omega
  | ⟨2, _⟩ => show win0_1.index t (2 : Fin 3) * 4096 + 1 * h.val = h.val; rw [e2]; omega

/-- W2's block: entry (0, h, d) is W2 at (E, h, d). -/
theorem blk_w2_apply (c : Dev nD) (t : Fin cfg0.N) (h : Fin 4096) (d : Fin 2048) (E : Fin 8)
    (hE : E.val = win0_5.index t (0 : Fin 3)) :
    (iblk m c 3 t : FVec Ideal S1x4096x2048 .bf16) (ix3 (0 : Fin 1) h d)
      = (m ((c : Thread nD τ).loc main_arg3) : FVec Ideal S8x4096x2048 .f32) (ix3 E h d) := by
  obtain ⟨-, -, -, -, -, -, -, -, e0, e1, e2, -⟩ := idx_facts t
  unfold iblk
  rw [View.read_apply]
  show (V m c main_call0_v2 : FVec Ideal S8x4096x2048 .bf16) _ = _
  rw [V_w2]
  show (m ((c : Thread nD τ).loc main_arg3) : FVec Ideal S8x4096x2048 .f32) _ = _
  congr 1
  funext a
  apply Fin.ext
  match a with
  | ⟨0, _⟩ => show win0_3.index t (0 : Fin 3) * 1 + 1 * 0 = E.val; rw [e0, hE]; omega
  | ⟨1, _⟩ => show win0_3.index t (1 : Fin 3) * 4096 + 1 * h.val = h.val; rw [e1]; omega
  | ⟨2, _⟩ => show win0_3.index t (2 : Fin 3) * 2048 + 1 * d.val = d.val; rw [e2]; omega

/-- b1's block: entry (0, 0, h) is b1 at (E, h). -/
theorem blk_b1_apply (c : Dev nD) (t : Fin cfg0.N) (h : Fin 4096) (E : Fin 8)
    (hE : E.val = win0_5.index t (0 : Fin 3)) :
    (iblk m c 2 t : FVec Ideal S1x1x4096 .f32) (ix3 (0 : Fin 1) (0 : Fin 1) h)
      = (m ((c : Thread nD τ).loc main_arg2) : FVec Ideal S8x4096 .f32) (ix2 E h) := by
  obtain ⟨-, -, -, -, -, e0, e1, e2, -⟩ := idx_facts t
  unfold iblk
  rw [View.read_apply]
  show (V m c main_call0_v3 : FVec Ideal S8x1x4096 .f32) _ = _
  rw [V_b1]
  refine shapeCast_apply _ shapeCasts_S8x4096_S8x1x4096 _ (ix2 E h) ?_
  rw [Shape.rowMajor_val_two, Shape.rowMajor_val_three]
  show E.val * 4096 + h.val
    = ((win0_2.index t (0 : Fin 3) * 1 + 1 * 0) * 1 + (win0_2.index t (1 : Fin 3) * 1 + 1 * 0)) * 4096
      + (win0_2.index t (2 : Fin 3) * 4096 + 1 * h.val)
  rw [e0, e1, e2, hE]; omega

/-- b2's block: entry (0, 0, d) is b2 at (E, d). -/
theorem blk_b2_apply (c : Dev nD) (t : Fin cfg0.N) (d : Fin 2048) (E : Fin 8)
    (hE : E.val = win0_5.index t (0 : Fin 3)) :
    (iblk m c 4 t : FVec Ideal S1x1x2048 .f32) (ix3 (0 : Fin 1) (0 : Fin 1) d)
      = (m ((c : Thread nD τ).loc main_arg4) : FVec Ideal S8x2048 .f32) (ix2 E d) := by
  obtain ⟨-, -, -, -, -, -, -, -, -, -, -, e0, e1, e2, -⟩ := idx_facts t
  unfold iblk
  rw [View.read_apply]
  show (V m c main_call0_v4 : FVec Ideal S8x1x2048 .f32) _ = _
  rw [V_b2]
  refine shapeCast_apply _ shapeCasts_S8x2048_S8x1x2048 _ (ix2 E d) ?_
  rw [Shape.rowMajor_val_two, Shape.rowMajor_val_three]
  show E.val * 2048 + d.val
    = ((win0_4.index t (0 : Fin 3) * 1 + 1 * 0) * 1 + (win0_4.index t (1 : Fin 3) * 1 + 1 * 0)) * 2048
      + (win0_4.index t (2 : Fin 3) * 2048 + 1 * d.val)
  rw [e0, e1, e2, hE]; omega

end Cert.KernelIdeal.KValue

end
-- ==== Proof.Spec.lean ====
/-
  The function both programs compute, index by index, on the extended reals.

  For expert `e`, token `r` and output feature `d`:

      out(e, r, d) = (Σ_{h < 4096} relu(Σ_{k < 2048} x(r, k) · W1(e, k, h) + b1(e, h)) · W2(e, h, d)) + b2(e, d),

  where relu(a) = max(a, 0) and 0 is the value of the f32 zero word.  A change of float format is the identity on
  the extended reals, so the kernel's roundings of x, W1, W2 and of the hidden activations to bf16 do not appear.
-/
import Idealize.ShloMosaic.PureOps.Ideal
import Idealize.ShloMosaic.Lib.ValueIdx

noncomputable section

namespace Cert.Moe

open Idealize.ShloMosaic Idealize.ShloMosaic.ValueIdx

/-- Token `r`'s activation of hidden unit `h` in expert `e`: the first layer's affine map followed by relu. -/
def hidden (x : (⟨2, ![8192, 2048]⟩ : Shape).Idx → EReal) (W1 : (⟨3, ![8, 2048, 4096]⟩ : Shape).Idx → EReal)
    (b1 : (⟨2, ![8, 4096]⟩ : Shape).Idx → EReal) (e : Fin 8) (r : Fin 8192) (h : Fin 4096) : EReal :=
  max ((∑ k : Fin 2048, x (ix2 r k) * W1 (ix3 e k h)) + b1 (ix2 e h)) (Ideal.ofBits .f32 0x00000000#32)

/-- Expert `e`'s output for token `r` at feature `d`: the second layer's affine map of the hidden activations. -/
def expertOut (x : (⟨2, ![8192, 2048]⟩ : Shape).Idx → EReal) (W1 : (⟨3, ![8, 2048, 4096]⟩ : Shape).Idx → EReal)
    (b1 : (⟨2, ![8, 4096]⟩ : Shape).Idx → EReal) (W2 : (⟨3, ![8, 4096, 2048]⟩ : Shape).Idx → EReal)
    (b2 : (⟨2, ![8, 2048]⟩ : Shape).Idx → EReal) (e : Fin 8) (r : Fin 8192) (d : Fin 2048) : EReal :=
  (∑ h : Fin 4096, hidden x W1 b1 e r h * W2 (ix3 e h d)) + b2 (ix2 e d)

/-- The whole result array [8, 8192, 2048]: every expert applied to every token. -/
def G (x : (⟨2, ![8192, 2048]⟩ : Shape).Idx → EReal) (W1 : (⟨3, ![8, 2048, 4096]⟩ : Shape).Idx → EReal)
    (b1 : (⟨2, ![8, 4096]⟩ : Shape).Idx → EReal) (W2 : (⟨3, ![8, 4096, 2048]⟩ : Shape).Idx → EReal)
    (b2 : (⟨2, ![8, 2048]⟩ : Shape).Idx → EReal) : (⟨3, ![8, 8192, 2048]⟩ : Shape).Idx → EReal :=
  fun i => expertOut x W1 b1 W2 b2 (i 0) (i 1) (i 2)

end Cert.Moe

end
-- ==== Proof.KernelValue.lean ====
/-
  The kernel's result array, as one function of the argument arrays.

  At the grid point whose output block is (E, T) the body leaves `blockSpec` of its blocks; its blocks are rows of the
  arguments (row E of W1, b1, W2, b2; rows 1024·T … of x), so what the point writes back is the block (E, T) of the
  specification `G` of the arguments.  The 8 × 8 output blocks tile the [8, 8192, 2048] result, one point each, so the
  result array ends holding `G` of the arguments.
-/
import proofs.«111104_g89558658056817_cont_sun_c4_558_18_alg».proof.Proof.Body
import proofs.«111104_g89558658056817_cont_sun_c4_558_18_alg».proof.Proof.KernelBlocks
import proofs.«111104_g89558658056817_cont_sun_c4_558_18_alg».proof.Proof.Spec

set_option maxRecDepth 16384

noncomputable section

namespace Cert.KernelIdeal.KValue

open Cert.KernelIdeal Cert.KernelIdeal.Gen Cert.KernelIdeal.Block Cert.KernelIdeal.Body
open Idealize.ShloMosaic Idealize.ShloMosaic.TcCoe Idealize.ShloMosaic.Tactic
open Idealize.SL.Sem Idealize.ShloMosaic.ValueIdx
open Idealize.ShloMosaic.Pipeline (Dat)

variable (m : (ℓ : Loc nD τ sig) → Buf (Elt Ideal) ℓ) (ρ : Dev nD → PrngReg)

/-- The specification at the argument arrays as launched. -/
def result (c : Dev nD) : FVec Ideal S8x8192x2048 .f32 :=
  Cert.Moe.G (m ((c : Thread nD τ).loc main_arg0) : FVec Ideal S8192x2048 .f32) (m ((c : Thread nD τ).loc main_arg1) : FVec Ideal S8x2048x4096 .f32)
    (m ((c : Thread nD τ).loc main_arg2) : FVec Ideal S8x4096 .f32) (m ((c : Thread nD τ).loc main_arg3) : FVec Ideal S8x4096x2048 .f32)
    (m ((c : Thread nD τ).loc main_arg4) : FVec Ideal S8x2048 .f32)

/-- `blockSpec` of the blocks at point `t`, at (p, d), is `G` of the arguments at the array index that entry (0, p, d) of the
    point's output block names. -/
theorem block_eq_spec (c : Dev nD) (t : Fin cfg0.N) (p : Fin 1024) (d : Fin 2048) (i : S8x8192x2048.Idx)
    (h0 : (i 0).val = win0_5.index t (0 : Fin 3)) (h1 : (i 1).val = win0_5.index t (1 : Fin 3) * 1024 + p.val)
    (h2 : (i 2).val = d.val) :
    blockSpec (iblk m c 0 t) (iblk m c 1 t) (iblk m c 2 t) (iblk m c 3 t) (iblk m c 4 t) p d = result m c i := by
  unfold blockSpec result Cert.Moe.G Cert.Moe.expertOut
  have hD : i 2 = d := Fin.ext h2
  rw [hD, blk_b2_apply m c t d (i 0) h0]
  refine congrArg₂ (· + ·) ?_ rfl
  refine Finset.sum_congr rfl fun h _ => ?_
  rw [blk_w2_apply m c t h d (i 0) h0]
  refine congrArg₂ (· * ·) ?_ rfl
  unfold hidB Cert.Moe.hidden
  rw [blk_b1_apply m c t h (i 0) h0]
  refine congrArg₂ max (congrArg₂ (· + ·) ?_ rfl) rfl
  refine Finset.sum_congr rfl fun κ _ => ?_
  rw [blk_x_apply m c t p κ (i 1) h1, blk_w1_apply m c t κ h (i 0) h0]

/-- What point `t` writes back is block `t` of the specification at the arguments. -/
theorem flushed_eq (c : Dev nD) (t : Fin cfg0.N) :
    (dats m 0 c).flushed 5 t = ((cfg0.win 5).blk t).view.read (Elt Ideal) (result m c) := by
  rw [Cert.KernelIdeal.Value.flushed5_A]
  obtain ⟨-, -, -, -, -, -, -, -, -, -, -, -, -, -, e2, -⟩ := idx_facts t
  funext j
  obtain ⟨z, p, d, rfl⟩ : ∃ (z : Fin 1) (p : Fin 1024) (d : Fin 2048), j = ix3 z p d := ⟨j 0, j 1, j 2, eq_ix3 j⟩
  obtain rfl : z = 0 := Subsingleton.elim _ _
  show out0_A_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (iblk m c 0 t) (iblk m c 1 t) (iblk m c 2 t) (iblk m c 3 t) (iblk m c 4 t)
      (ix3 (0 : Fin 1) p d)
    = result m c (((cfg0.win 5).blk t).view.emb (ix3 (0 : Fin 1) p d))
  rw [body_out]
  refine block_eq_spec m c t p d _ ?_ ?_ ?_
  · show win0_5.index t (0 : Fin 3) * 1 + 1 * 0 = win0_5.index t (0 : Fin 3); omega
  · show win0_5.index t (1 : Fin 3) * 1024 + 1 * p.val = win0_5.index t (1 : Fin 3) * 1024 + p.val; omega
  · show win0_5.index t (2 : Fin 3) * 2048 + 1 * d.val = d.val; rw [e2]; omega

/-- An index of the result is in point `t`'s block iff each coordinate is in the block's range on its axis. -/
theorem mem_blk (t : Fin cfg0.N) (i : S8x8192x2048.Idx) :
    i ∈ ((cfg0.win 5).blk t).view.set ↔ ∀ a : Fin 3, win0_5.index t a * S1x1024x2048.size a ≤ (i a).val
      ∧ (i a).val < win0_5.index t a * S1x1024x2048.size a + S1x1024x2048.size a := by
  show i ∈ ((View.whole main_v0).slice (win0_5.rect t)).set ↔ _
  rw [View.set_slice_whole, Rect.mem_set_unit]
  exact Iff.rfl

/-- Every index of the result is in some point's block: expert `i 0`, token tile `i 1 / 1024`. -/
theorem cover (i : S8x8192x2048.Idx) :
    ∃ t : Fin cfg0.N, (cfg0.win 5).flush t = true ∧ i ∈ ((cfg0.win 5).blk t).view.set := by
  have hi0 : (i 0).val < 8 := (i 0).isLt
  have hi1 : (i 1).val < 8192 := (i 1).isLt
  have hi2 : (i 2).val < 2048 := (i 2).isLt
  obtain ⟨t, ht⟩ := idx_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 2048 ≤ (i 2).val ∧ (i 2).val < win0_5.index t (2 : Fin 3) * 2048 + 2048; omega

/-- The result array after the run is the specification at the arguments. -/
theorem final (c : Dev nD) : (dats m 0 c).arrAt 5 cfg0.N = result m c :=
  (dats m 0 c).arrAt_eq_of_cover 5 (result m c) (fun t _ => flushed_eq m c t) cover

/-- The kernel's run, read: the result at the specification of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.KValue

end
-- ==== Proof.RefExpert.lean ====
/-
  The reference, read index by index.

  The reference runs the eight experts one after the other on the whole batch and stacks the results.  Expert `e`'s
  chain slices row `e` out of W1, b1, W2, b2, multiplies x by the W1 slice, adds the b1 slice along the rows, takes the
  maximum with zero, multiplies by the W2 slice and adds the b2 slice along the rows.  Read at token `r` and feature `d`
  this is the specification's `expertOut … e r d`: each matrix product is the sum over the contracted coordinate, each
  slice-then-reshape reads the whole array at row `e`.  The stack puts expert `e`'s [8192, 2048] result at leading
  coordinate `e` of the [8, 8192, 2048] result.
-/
import proofs.«111104_g89558658056817_cont_sun_c4_558_18_alg».proof.ReferenceIdeal
import proofs.«111104_g89558658056817_cont_sun_c4_558_18_alg».proof.Proof.Gen.ReferenceIdeal
import proofs.«111104_g89558658056817_cont_sun_c4_558_18_alg».proof.Proof.Spec
import proofs.«111104_g89558658056817_cont_sun_c4_558_18_alg».proof.Proof.LibDense
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx Cert.Lib.Dense

/-! ## Row `e` of a stacked array, sliced out and reshaped -/

/-- Row `e` of W1, as a [2048, 4096] matrix, at (k, h) is W1 at (e, k, h). -/
theorem w1_row_apply (e : Fin 8) (x1 : FVec Ideal S8x2048x4096 .f32) (h1 : S8x2048x4096.Slices ![e.val, 0, 0] S1x2048x4096)
    (k : Fin 2048) (h : Fin 4096) :
    shapeCast S2048x4096 (extractStridedSlice S1x2048x4096 ![e.val, 0, 0] x1 h1) shapeCasts_S1x2048x4096_S2048x4096 (ix2 k h)
      = x1 (ix3 e k h) := by
  rw [shapeCast_apply _ shapeCasts_S1x2048x4096_S2048x4096 (ix2 k h) (ix3 (0 : Fin 1) k h) (by
    rw [Shape.rowMajor_val_three, Shape.rowMajor_val_two]
    show (0 * 2048 + k.val) * 4096 + h.val = k.val * 4096 + h.val
    omega)]
  exact extractStridedSlice_apply _ x1 h1 (ix3 (0 : Fin 1) k h) (ix3 e k h) (fun a => match a with
    | ⟨0, _⟩ => by show e.val = e.val + 0; omega
    | ⟨1, _⟩ => by show k.val = 0 + k.val; omega
    | ⟨2, _⟩ => by show h.val = 0 + h.val; omega)

/-- Row `e` of W2, as a [4096, 2048] matrix, at (h, d) is W2 at (e, h, d). -/
theorem w2_row_apply (e : Fin 8) (x3 : FVec Ideal S8x4096x2048 .f32) (h3 : S8x4096x2048.Slices ![e.val, 0, 0] S1x4096x2048)
    (h : Fin 4096) (d : Fin 2048) :
    shapeCast S4096x2048 (extractStridedSlice S1x4096x2048 ![e.val, 0, 0] x3 h3) shapeCasts_S1x4096x2048_S4096x2048 (ix2 h d)
      = x3 (ix3 e h d) := by
  rw [shapeCast_apply _ shapeCasts_S1x4096x2048_S4096x2048 (ix2 h d) (ix3 (0 : Fin 1) h d) (by
    rw [Shape.rowMajor_val_three, Shape.rowMajor_val_two]
    show (0 * 4096 + h.val) * 2048 + d.val = h.val * 2048 + d.val
    omega)]
  exact extractStridedSlice_apply _ x3 h3 (ix3 (0 : Fin 1) h d) (ix3 e h d) (fun a => match a with
    | ⟨0, _⟩ => by show e.val = e.val + 0; omega
    | ⟨1, _⟩ => by show h.val = 0 + h.val; omega
    | ⟨2, _⟩ => by show d.val = 0 + d.val; omega)

/-- Row `e` of b1, as a vector of length 4096, at h is b1 at (e, h). -/
theorem b1_row_apply (e : Fin 8) (x2 : FVec Ideal S8x4096 .f32) (h2 : S8x4096.Slices ![e.val, 0] S1x4096) (h : Fin 4096) :
    shapeCast S4096 (extractStridedSlice S1x4096 ![e.val, 0] x2 h2) shapeCasts_S1x4096_S4096 (ix1 h) = x2 (ix2 e h) := by
  rw [shapeCast_apply _ shapeCasts_S1x4096_S4096 (ix1 h) (ix2 (0 : Fin 1) h) (by
    rw [Shape.rowMajor_val_two, Shape.rowMajor_val_one]
    show 0 * 4096 + h.val = h.val
    omega)]
  exact extractStridedSlice_apply _ x2 h2 (ix2 (0 : Fin 1) h) (ix2 e h) (fun a => match a with
    | ⟨0, _⟩ => by show e.val = e.val + 0; omega
    | ⟨1, _⟩ => by show h.val = 0 + h.val; omega)

/-- Row `e` of b2, as a vector of length 2048, at d is b2 at (e, d). -/
theorem b2_row_apply (e : Fin 8) (x4 : FVec Ideal S8x2048 .f32) (h4 : S8x2048.Slices ![e.val, 0] S1x2048) (d : Fin 2048) :
    shapeCast S2048 (extractStridedSlice S1x2048 ![e.val, 0] x4 h4) shapeCasts_S1x2048_S2048 (ix1 d) = x4 (ix2 e d) := by
  rw [shapeCast_apply _ shapeCasts_S1x2048_S2048 (ix1 d) (ix2 (0 : Fin 1) d) (by
    rw [Shape.rowMajor_val_two, Shape.rowMajor_val_one]
    show 0 * 2048 + d.val = d.val
    omega)]
  exact extractStridedSlice_apply _ x4 h4 (ix2 (0 : Fin 1) d) (ix2 e d) (fun a => match a with
    | ⟨0, _⟩ => by show e.val = e.val + 0; omega
    | ⟨1, _⟩ => by show d.val = 0 + d.val; omega)

/-! ## One expert's chain -/

/-- The hidden activations of expert `e` on the whole batch, as the reference computes them. -/
def hiddenTerm (e : Fin 8) (h1 : S8x2048x4096.Slices ![e.val, 0, 0] S1x2048x4096) (h2 : S8x4096.Slices ![e.val, 0] S1x4096)
    (x0 : FVec Ideal S8192x2048 .f32) (x1 : FVec Ideal S8x2048x4096 .f32) (x2 : FVec Ideal S8x4096 .f32) :
    FVec Ideal S8192x4096 .f32 :=
  maximumf
    (addf
      (Host.dotGeneral (DotDims.plain 8192 2048 4096) none x0
        (shapeCast S2048x4096 (extractStridedSlice S1x2048x4096 ![e.val, 0, 0] x1 h1) shapeCasts_S1x2048x4096_S2048x4096))
      (broadcastInDim S8192x4096 ![0, 1] bcast_S1x4096_S8192x4096_0_1
        (broadcastInDim S1x4096 ![1] bcast_S4096_S1x4096_1
          (shapeCast S4096 (extractStridedSlice S1x4096 ![e.val, 0] x2 h2) shapeCasts_S1x4096_S4096))))
    (broadcastInDim S8192x4096 ![] bcast_S_S8192x4096 (constant (F := Ideal) S_ .f32 0x00000000#32))

/-- … at token `r` and hidden unit `h` they are the specification's `hidden`. -/
theorem hiddenTerm_apply (e : Fin 8) (h1 : S8x2048x4096.Slices ![e.val, 0, 0] S1x2048x4096) (h2 : S8x4096.Slices ![e.val, 0] S1x4096)
    (x0 : FVec Ideal S8192x2048 .f32) (x1 : FVec Ideal S8x2048x4096 .f32) (x2 : FVec Ideal S8x4096 .f32)
    (r : Fin 8192) (h : Fin 4096) :
    hiddenTerm e h1 h2 x0 x1 x2 (ix2 r h) = Cert.Moe.hidden x0 x1 x2 e r h := by
  unfold hiddenTerm Cert.Moe.hidden
  rw [maximumf_apply, host_dense_eq, dense_ix2]
  unfold denseAt
  beta_reduce
  rw [b1_row_apply]
  congr 1
  congr 1
  exact Finset.sum_congr rfl fun k _ => by rw [w1_row_apply]

/-- Expert `e`'s output on the whole batch, as the reference computes it. -/
def expertTerm (e : Fin 8) (h1 : S8x2048x4096.Slices ![e.val, 0, 0] S1x2048x4096) (h2 : S8x4096.Slices ![e.val, 0] S1x4096)
    (h3 : S8x4096x2048.Slices ![e.val, 0, 0] S1x4096x2048) (h4 : S8x2048.Slices ![e.val, 0] S1x2048)
    (x0 : FVec Ideal S8192x2048 .f32) (x1 : FVec Ideal S8x2048x4096 .f32) (x2 : FVec Ideal S8x4096 .f32)
    (x3 : FVec Ideal S8x4096x2048 .f32) (x4 : FVec Ideal S8x2048 .f32) : FVec Ideal S8192x2048 .f32 :=
  addf
    (Host.dotGeneral (DotDims.plain 8192 4096 2048) none (hiddenTerm e h1 h2 x0 x1 x2)
      (shapeCast S4096x2048 (extractStridedSlice S1x4096x2048 ![e.val, 0, 0] x3 h3) shapeCasts_S1x4096x2048_S4096x2048))
    (broadcastInDim S8192x2048 ![0, 1] bcast_S1x2048_S8192x2048_0_1
      (broadcastInDim S1x2048 ![1] bcast_S2048_S1x2048_1
        (shapeCast S2048 (extractStridedSlice S1x2048 ![e.val, 0] x4 h4) shapeCasts_S1x2048_S2048)))

/-- … at token `r` and feature `d` it is the specification's `expertOut`. -/
theorem expertTerm_apply (e : Fin 8) (h1 : S8x2048x4096.Slices ![e.val, 0, 0] S1x2048x4096) (h2 : S8x4096.Slices ![e.val, 0] S1x4096)
    (h3 : S8x4096x2048.Slices ![e.val, 0, 0] S1x4096x2048) (h4 : S8x2048.Slices ![e.val, 0] S1x2048)
    (x0 : FVec Ideal S8192x2048 .f32) (x1 : FVec Ideal S8x2048x4096 .f32) (x2 : FVec Ideal S8x4096 .f32)
    (x3 : FVec Ideal S8x4096x2048 .f32) (x4 : FVec Ideal S8x2048 .f32) (r : Fin 8192) (d : Fin 2048) :
    expertTerm e h1 h2 h3 h4 x0 x1 x2 x3 x4 (ix2 r d) = Cert.Moe.expertOut x0 x1 x2 x3 x4 e r d := by
  unfold expertTerm Cert.Moe.expertOut
  rw [host_dense_eq, dense_ix2]
  unfold denseAt
  beta_reduce
  rw [b2_row_apply]
  congr 1
  exact Finset.sum_congr rfl fun h _ => by rw [hiddenTerm_apply, w2_row_apply]

end Cert.ReferenceIdeal.RefValue

end
-- ==== Proof.RefStack.lean ====
/-
  The reference's stack of the eight experts, read index by index.

  Each expert's [8192, 2048] result is given a unit leading axis and the eight are joined along it, so the result at
  (e, r, d) is expert `e`'s result at (r, d): the specification `G`.
-/
import proofs.«111104_g89558658056817_cont_sun_c4_558_18_alg».proof.Proof.RefExpert

noncomputable section

namespace Cert.ReferenceIdeal.RefValue

open Cert.ReferenceIdeal Cert.ReferenceIdeal.Gen Idealize.ShloMosaic Idealize.ShloMosaic.ValueIdx

/-! ## Row `n` may be sliced out of each stacked argument, for every `n < 8` -/

theorem sliceW1 : ∀ n : Fin 8, S8x2048x4096.Slices ![n.val, 0, 0] S1x2048x4096
  | ⟨0, _⟩ => slices_S8x2048x4096_S1x2048x4096_0_0_0
  | ⟨1, _⟩ => slices_S8x2048x4096_S1x2048x4096_1_0_0
  | ⟨2, _⟩ => slices_S8x2048x4096_S1x2048x4096_2_0_0
  | ⟨3, _⟩ => slices_S8x2048x4096_S1x2048x4096_3_0_0
  | ⟨4, _⟩ => slices_S8x2048x4096_S1x2048x4096_4_0_0
  | ⟨5, _⟩ => slices_S8x2048x4096_S1x2048x4096_5_0_0
  | ⟨6, _⟩ => slices_S8x2048x4096_S1x2048x4096_6_0_0
  | ⟨7, _⟩ => slices_S8x2048x4096_S1x2048x4096_7_0_0
theorem sliceB1 : ∀ n : Fin 8, S8x4096.Slices ![n.val, 0] S1x4096
  | ⟨0, _⟩ => slices_S8x4096_S1x4096_0_0
  | ⟨1, _⟩ => slices_S8x4096_S1x4096_1_0
  | ⟨2, _⟩ => slices_S8x4096_S1x4096_2_0
  | ⟨3, _⟩ => slices_S8x4096_S1x4096_3_0
  | ⟨4, _⟩ => slices_S8x4096_S1x4096_4_0
  | ⟨5, _⟩ => slices_S8x4096_S1x4096_5_0
  | ⟨6, _⟩ => slices_S8x4096_S1x4096_6_0
  | ⟨7, _⟩ => slices_S8x4096_S1x4096_7_0
theorem sliceW2 : ∀ n : Fin 8, S8x4096x2048.Slices ![n.val, 0, 0] S1x4096x2048
  | ⟨0, _⟩ => slices_S8x4096x2048_S1x4096x2048_0_0_0
  | ⟨1, _⟩ => slices_S8x4096x2048_S1x4096x2048_1_0_0
  | ⟨2, _⟩ => slices_S8x4096x2048_S1x4096x2048_2_0_0
  | ⟨3, _⟩ => slices_S8x4096x2048_S1x4096x2048_3_0_0
  | ⟨4, _⟩ => slices_S8x4096x2048_S1x4096x2048_4_0_0
  | ⟨5, _⟩ => slices_S8x4096x2048_S1x4096x2048_5_0_0
  | ⟨6, _⟩ => slices_S8x4096x2048_S1x4096x2048_6_0_0
  | ⟨7, _⟩ => slices_S8x4096x2048_S1x4096x2048_7_0_0
theorem sliceB2 : ∀ n : Fin 8, S8x2048.Slices ![n.val, 0] S1x2048
  | ⟨0, _⟩ => slices_S8x2048_S1x2048_0_0
  | ⟨1, _⟩ => slices_S8x2048_S1x2048_1_0
  | ⟨2, _⟩ => slices_S8x2048_S1x2048_2_0
  | ⟨3, _⟩ => slices_S8x2048_S1x2048_3_0
  | ⟨4, _⟩ => slices_S8x2048_S1x2048_4_0
  | ⟨5, _⟩ => slices_S8x2048_S1x2048_5_0
  | ⟨6, _⟩ => slices_S8x2048_S1x2048_6_0
  | ⟨7, _⟩ => slices_S8x2048_S1x2048_7_0

variable (x0 : FVec Ideal S8192x2048 .f32) (x1 : FVec Ideal S8x2048x4096 .f32) (x2 : FVec Ideal S8x4096 .f32)
  (x3 : FVec Ideal S8x4096x2048 .f32) (x4 : FVec Ideal S8x2048 .f32)

/-- Expert `n`'s result with a unit leading axis. -/
def piece (n : Fin 8) : FVec Ideal S1x8192x2048 .f32 :=
  broadcastInDim S1x8192x2048 ![1, 2] bcast_S8192x2048_S1x8192x2048_1_2
    (expertTerm n (sliceW1 n) (sliceB1 n) (sliceW2 n) (sliceB2 n) x0 x1 x2 x3 x4)

theorem piece_apply (n : Fin 8) (r : Fin 8192) (d : Fin 2048) :
    piece x0 x1 x2 x3 x4 n (ix3 (0 : Fin 1) r d) = Cert.Moe.expertOut x0 x1 x2 x3 x4 n r d := by
  unfold piece
  rw [broadcastInDim_apply _ bcast_S8192x2048_S1x8192x2048_1_2 _ (ix3 (0 : Fin 1) r d) (ix2 r d) (fun a => match a with
    | ⟨0, _⟩ => by show r.val = if (8192 : Nat) = 1 then 0 else r.val; rw [if_neg (by decide)]
    | ⟨1, _⟩ => by show d.val = if (2048 : Nat) = 1 then 0 else d.val; rw [if_neg (by decide)])]
  exact expertTerm_apply n _ _ _ _ x0 x1 x2 x3 x4 r d

/-- The eight pieces joined along the leading axis. -/
def stacked
    (hcat : Shape.Concatenates ((List.ofFn fun n : Fin 8 =>
      (⟨S1x8192x2048, piece x0 x1 x2 x3 x4 n⟩ : (s : Shape) × (s.Idx → EReal))).map (·.1)) S8x8192x2048 0) :
    FVec Ideal S8x8192x2048 .f32 :=
  concatenate S8x8192x2048 0 (List.ofFn fun n : Fin 8 =>
    (⟨S1x8192x2048, piece x0 x1 x2 x3 x4 n⟩ : (s : Shape) × (s.Idx → EReal))) hcat

/-- The stack is the specification. -/
theorem stacked_eq_G
    (hcat : Shape.Concatenates ((List.ofFn fun n : Fin 8 =>
      (⟨S1x8192x2048, piece x0 x1 x2 x3 x4 n⟩ : (s : Shape) × (s.Idx → EReal))).map (·.1)) S8x8192x2048 0) :
    stacked x0 x1 x2 x3 x4 hcat = Cert.Moe.G x0 x1 x2 x3 x4 := by
  funext i
  obtain ⟨e, r, d, rfl⟩ : ∃ (e : Fin 8) (r : Fin 8192) (d : Fin 2048), i = ix3 e r d := ⟨i 0, i 1, i 2, eq_ix3 i⟩
  unfold stacked
  rw [concatenate_ofFn_unit_apply (t := S8x8192x2048) (s₁ := S1x8192x2048) (0 : Fin 3) (piece x0 x1 x2 x3 x4) hcat rfl rfl (ix3 e r d) e rfl (ix3 (0 : Fin 1) r d)
    (fun b hb => match b with
      | ⟨0, _⟩ => absurd rfl hb
      | ⟨1, _⟩ => rfl
      | ⟨2, _⟩ => rfl)]
  exact piece_apply x0 x1 x2 x3 x4 e r d

end Cert.ReferenceIdeal.RefValue

end
-- ==== Proof.RefRes.lean ====
/-
  The reference's run, read: its result is the specification at its arguments.

  The run's result term is the stack of the eight experts' chains over the argument arrays as launched, which
  `RefStack.lean` reads index by index as `G`.
-/
import proofs.«111104_g89558658056817_cont_sun_c4_558_18_alg».proof.Proof.RefRun
import proofs.«111104_g89558658056817_cont_sun_c4_558_18_alg».proof.Proof.RefStack

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-- Eight pieces of extent one along the leading axis make up the [8, 8192, 2048] result. -/
theorem hcat (x0 : FVec Ideal S8192x2048 .f32) (x1 : FVec Ideal S8x2048x4096 .f32) (x2 : FVec Ideal S8x4096 .f32)
    (x3 : FVec Ideal S8x4096x2048 .f32) (x4 : FVec Ideal S8x2048 .f32) :
    Shape.Concatenates ((List.ofFn fun n : Fin 8 =>
      (⟨S1x8192x2048, piece x0 x1 x2 x3 x4 n⟩ : (s : Shape) × (s.Idx → EReal))).map (·.1)) S8x8192x2048 0 :=
  concatenates_S1x8192x2048_S1x8192x2048_S1x8192x2048_S1x8192x2048_S1x8192x2048_S1x8192x2048_S1x8192x2048_S1x8192x2048_S8x8192x2048_d0

variable (m : (ℓ : Loc nD τ sig) → Buf (Elt Ideal) ℓ) (ρ : Dev nD → PrngReg)

set_option maxHeartbeats 4000000 in
/-- The run's result term is the stack of the experts' chains over the arguments. -/
theorem res_eq (c : Dev nD) :
    @Eq (FVec Ideal S8x8192x2048 .f32) (Cert.ReferenceIdeal.ValueP.res_main_v152 (F := Ideal) m c)
      (stacked
      (m ((c.tc : Thread nD τ).loc main_arg0) : FVec Ideal S8192x2048 .f32)
      (m ((c.tc : Thread nD τ).loc main_arg1) : FVec Ideal S8x2048x4096 .f32)
      (m ((c.tc : Thread nD τ).loc main_arg2) : FVec Ideal S8x4096 .f32)
      (m ((c.tc : Thread nD τ).loc main_arg3) : FVec Ideal S8x4096x2048 .f32)
      (m ((c.tc : Thread nD τ).loc main_arg4) : FVec Ideal S8x2048 .f32)
      (hcat _ _ _ _ _)) := by
  unfold Cert.ReferenceIdeal.ValueP.res_main_v152 stacked
  rfl

/-- So the result is the specification at the arguments. -/
theorem res_eq_G (c : Dev nD) :
    @Eq (FVec Ideal S8x8192x2048 .f32) (Cert.ReferenceIdeal.ValueP.res_main_v152 (F := Ideal) m c)
      (Cert.Moe.G
      (m ((c.tc : Thread nD τ).loc main_arg0) : FVec Ideal S8192x2048 .f32)
      (m ((c.tc : Thread nD τ).loc main_arg1) : FVec Ideal S8x2048x4096 .f32)
      (m ((c.tc : Thread nD τ).loc main_arg2) : FVec Ideal S8x4096 .f32)
      (m ((c.tc : Thread nD τ).loc main_arg3) : FVec Ideal S8x4096x2048 .f32)
      (m ((c.tc : Thread nD τ).loc main_arg4) : FVec Ideal S8x2048 .f32)) :=
  (res_eq m c).trans (stacked_eq_G _ _ _ _ _ _)

/-- The reference's run, read: the result at the specification of the arguments, the arguments unchanged. -/
theorem run : θ_run defs (onTc (τ := τ) (main (F := Ideal))) ⟨m, fun _ => 0, ρ⟩ fun r => ∀ c : Dev nD,
      r.2.mem ((c.tc : Thread nD τ).loc main_v152) = Cert.Moe.G
      (m ((c.tc : Thread nD τ).loc main_arg0) : FVec Ideal S8192x2048 .f32)
      (m ((c.tc : Thread nD τ).loc main_arg1) : FVec Ideal S8x2048x4096 .f32)
      (m ((c.tc : Thread nD τ).loc main_arg2) : FVec Ideal S8x4096 .f32)
      (m ((c.tc : Thread nD τ).loc main_arg3) : FVec Ideal S8x4096x2048 .f32)
      (m ((c.tc : Thread nD τ).loc main_arg4) : FVec Ideal S8x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (res_eq_G m c), (h c).2⟩)
    (Cert.ReferenceIdeal.ValueP.run (F := Ideal) m ρ)

end Cert.ReferenceIdeal.RefValue

end
-- ==== Proof.lean ====
/-
  The certificate: the kernel and its reference compute the same array on the extended reals.

  For every expert e, token r and feature d both programs end with
      (Σ_h relu(Σ_k x(r, k) · W1(e, k, h) + b1(e, h)) · W2(e, h, d)) + b2(e, d)
  at (e, r, d) (`Cert.Moe.G`).  The reference computes it expert by expert with whole matrix products
  (`RefExpert`, `RefStack`, `RefRes`).  The kernel computes it block by block — 1024 tokens of one expert — cutting the hidden
  axis into four chunks and accumulating the second product into the output block (`Block`, `Column`, `Body`), on blocks
  that are rows of the arguments (`KernelBlocks`, `KernelValue`).  The two differ only in how the sum over the hidden axis
  is grouped and in where the bias is added, which commutativity and associativity of addition absorb (`SumSplit`); no
  finiteness of the inputs is used.  The kernel's roundings to bf16 are the identity on the extended reals, and the
  idealization rewrote nothing, so the third claim is trivial.  The frames are the generated ones; the reference's is its
  run with the result dropped.
-/
import proofs.«111104_g89558658056817_cont_sun_c4_558_18_alg».proof.Defs
import proofs.«111104_g89558658056817_cont_sun_c4_558_18_alg».proof.Proof.Gen.Kernel
import proofs.«111104_g89558658056817_cont_sun_c4_558_18_alg».proof.Proof.Gen.Kernel.Skeleton
import proofs.«111104_g89558658056817_cont_sun_c4_558_18_alg».proof.Proof.Gen.Kernel.Launch
import proofs.«111104_g89558658056817_cont_sun_c4_558_18_alg».proof.Proof.Gen.Kernel.Points
import proofs.«111104_g89558658056817_cont_sun_c4_558_18_alg».proof.Proof.Gen.Kernel.Frame
import proofs.«111104_g89558658056817_cont_sun_c4_558_18_alg».proof.Proof.Gen.KernelIdeal
import proofs.«111104_g89558658056817_cont_sun_c4_558_18_alg».proof.Proof.Gen.KernelIdeal.Skeleton
import proofs.«111104_g89558658056817_cont_sun_c4_558_18_alg».proof.Proof.Gen.KernelIdeal.Launch
import proofs.«111104_g89558658056817_cont_sun_c4_558_18_alg».proof.Proof.Gen.KernelIdeal.Points
import proofs.«111104_g89558658056817_cont_sun_c4_558_18_alg».proof.Proof.Gen.KernelIdeal.Frame
import proofs.«111104_g89558658056817_cont_sun_c4_558_18_alg».proof.Proof.Gen.KernelIdeal.Value
import proofs.«111104_g89558658056817_cont_sun_c4_558_18_alg».proof.Proof.Gen.ReferenceIdeal
import proofs.«111104_g89558658056817_cont_sun_c4_558_18_alg».proof.Proof.Gen.Pre_finite_inputs
import proofs.«111104_g89558658056817_cont_sun_c4_558_18_alg».proof.Proof.KernelValue
import proofs.«111104_g89558658056817_cont_sun_c4_558_18_alg».proof.Proof.RefRes
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Both runs end at the specification of their arguments, and the arguments agree. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RefValue.run m' ρ')
  unfold Cert.KernelIdeal.KValue.result
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
